-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  IdealRules.truncf_extf.Statement Cert.KernelIdeal.S512x784 .f32 .bf16
  ∧ IdealRules.sign_bit.Statement Cert.KernelIdeal.S512x3072 .f32
  ∧ IdealRules.sign_bit.Statement Cert.KernelIdeal.S512x1536 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x784 : Shape := ⟨2, ![16384, 784]⟩
abbrev S3072x784 : Shape := ⟨2, ![3072, 784]⟩
abbrev S3072 : Shape := ⟨1, ![3072]⟩
abbrev S1536x3072 : Shape := ⟨2, ![1536, 3072]⟩
abbrev S1536 : Shape := ⟨1, ![1536]⟩
abbrev S768x1536 : Shape := ⟨2, ![768, 1536]⟩
abbrev S768 : Shape := ⟨1, ![768]⟩
abbrev S10x768 : Shape := ⟨2, ![10, 768]⟩
abbrev S10 : Shape := ⟨1, ![10]⟩
abbrev S_ : Shape := ⟨0, ![]⟩

class Facts : Prop where
  bcast_S_S16384x784 : S_.BroadcastsInDim S16384x784 (![] : Fin 0 → Fin S16384x784.rank)
  reducesTo_S16384x784_S_d0_1 : S16384x784.ReducesTo [0, 1] S_
  h_S_ : 0 < S_.numel
  bcast_S_S3072x784 : S_.BroadcastsInDim S3072x784 (![] : Fin 0 → Fin S3072x784.rank)
  reducesTo_S3072x784_S_d0_1 : S3072x784.ReducesTo [0, 1] S_
  bcast_S_S3072 : S_.BroadcastsInDim S3072 (![] : Fin 0 → Fin S3072.rank)
  reducesTo_S3072_S_d0 : S3072.ReducesTo [0] S_
  bcast_S_S1536x3072 : S_.BroadcastsInDim S1536x3072 (![] : Fin 0 → Fin S1536x3072.rank)
  reducesTo_S1536x3072_S_d0_1 : S1536x3072.ReducesTo [0, 1] S_
  bcast_S_S1536 : S_.BroadcastsInDim S1536 (![] : Fin 0 → Fin S1536.rank)
  reducesTo_S1536_S_d0 : S1536.ReducesTo [0] S_
  bcast_S_S768x1536 : S_.BroadcastsInDim S768x1536 (![] : Fin 0 → Fin S768x1536.rank)
  reducesTo_S768x1536_S_d0_1 : S768x1536.ReducesTo [0, 1] S_
  bcast_S_S768 : S_.BroadcastsInDim S768 (![] : Fin 0 → Fin S768.rank)
  reducesTo_S768_S_d0 : S768.ReducesTo [0] S_
  bcast_S_S10x768 : S_.BroadcastsInDim S10x768 (![] : Fin 0 → Fin S10x768.rank)
  reducesTo_S10x768_S_d0_1 : S10x768.ReducesTo [0, 1] S_
  bcast_S_S10 : S_.BroadcastsInDim S10 (![] : Fin 0 → Fin S10.rank)
  reducesTo_S10_S_d0 : S10.ReducesTo [0] S_

variable [Facts]

def fn_part6 {F : FTy → Type} [FloatOps F] (main_arg12 : FVec F S3072 .f32) (main_arg16 : FVec F S1536 .f32) (main_arg20 : FVec F S768 .f32) (main_v98 : IVec S_ 1) (main_v101 : IVec S768 1) (main_c_39 : IVec S_ 1) : IVec S_ 1 :=
  let main_v102 : IVec S_ 1 := (fun x v => Host.reduce IntOp.andi x v reducesTo_S768_S_d0 h_S_) main_v101 main_c_39
  let main_v103 : IVec S_ 1 := andi main_v98 main_v102
  let main_cst_40 : FVec F S_ .f32 := constant S_ .f32 0x00000000#32
  let main_v104 : FVec F S3072 .f32 := broadcastInDim S3072 ![] bcast_S_S3072 main_cst_40
  let main_v105 : IVec S3072 1 := cmpf .oge main_arg12 main_v104
  let main_c_41 : IVec S_ 1 := constantI S_ 1 1#1
  let main_v106 : IVec S_ 1 := (fun x v => Host.reduce IntOp.andi x v reducesTo_S3072_S_d0 h_S_) main_v105 main_c_41
  let main_v107 : IVec S_ 1 := andi main_v103 main_v106
  let main_cst_42 : FVec F S_ .f32 := constant S_ .f32 0x00000000#32
  let main_v108 : FVec F S1536 .f32 := broadcastInDim S1536 ![] bcast_S_S1536 main_cst_42
  let main_v109 : IVec S1536 1 := cmpf .oge main_arg16 main_v108
  let main_c_43 : IVec S_ 1 := constantI S_ 1 1#1
  let main_v110 : IVec S_ 1 := (fun x v => Host.reduce IntOp.andi x v reducesTo_S1536_S_d0 h_S_) main_v109 main_c_43
  let main_v111 : IVec S_ 1 := andi main_v107 main_v110
  let main_cst_44 : FVec F S_ .f32 := constant S_ .f32 0x00000000#32
  let main_v112 : FVec F S768 .f32 := broadcastInDim S768 ![] bcast_S_S768 main_cst_44
  let main_v113 : IVec S768 1 := cmpf .oge main_arg20 main_v112
  let main_c_45 : IVec S_ 1 := constantI S_ 1 1#1
  let main_v114 : IVec S_ 1 := (fun x v => Host.reduce IntOp.andi x v reducesTo_S768_S_d0 h_S_) main_v113 main_c_45
  let main_v115 : IVec S_ 1 := andi main_v111 main_v114
  main_v115

def fn_part5 {F : FTy → Type} [FloatOps F] (main_arg12 : FVec F S3072 .f32) (main_arg16 : FVec F S1536 .f32) (main_arg18 : FVec F S768 .f32) (main_arg19 : FVec F S768 .f32) (main_arg20 : FVec F S768 .f32) (main_v83 : IVec S_ 1) (main_v84 : FVec F S768 .f32) (main_cst_32 : FVec F S_ .f32) : IVec S_ 1 :=
  let main_v85 : FVec F S768 .f32 := broadcastInDim S768 ![] bcast_S_S768 main_cst_32
  let main_v86 : IVec S768 1 := cmpf .olt main_v84 main_v85
  let main_c_33 : IVec S_ 1 := constantI S_ 1 1#1
  let main_v87 : IVec S_ 1 := (fun x v => Host.reduce IntOp.andi x v reducesTo_S768_S_d0 h_S_) main_v86 main_c_33
  let main_v88 : IVec S_ 1 := andi main_v83 main_v87
  let main_v89 : FVec F S768 .f32 := Host.absf main_arg18
  let main_cst_34 : FVec F S_ .f32 := constant S_ .f32 0x7F800000#32
  let main_v90 : FVec F S768 .f32 := broadcastInDim S768 ![] bcast_S_S768 main_cst_34
  let main_v91 : IVec S768 1 := cmpf .olt main_v89 main_v90
  let main_c_35 : IVec S_ 1 := constantI S_ 1 1#1
  let main_v92 : IVec S_ 1 := (fun x v => Host.reduce IntOp.andi x v reducesTo_S768_S_d0 h_S_) main_v91 main_c_35
  let main_v93 : IVec S_ 1 := andi main_v88 main_v92
  let main_v94 : FVec F S768 .f32 := Host.absf main_arg19
  let main_cst_36 : FVec F S_ .f32 := constant S_ .f32 0x7F800000#32
  let main_v95 : FVec F S768 .f32 := broadcastInDim S768 ![] bcast_S_S768 main_cst_36
  let main_v96 : IVec S768 1 := cmpf .olt main_v94 main_v95
  let main_c_37 : IVec S_ 1 := constantI S_ 1 1#1
  let main_v97 : IVec S_ 1 := (fun x v => Host.reduce IntOp.andi x v reducesTo_S768_S_d0 h_S_) main_v96 main_c_37
  let main_v98 : IVec S_ 1 := andi main_v93 main_v97
  let main_v99 : FVec F S768 .f32 := Host.absf main_arg20
  let main_cst_38 : FVec F S_ .f32 := constant S_ .f32 0x7F800000#32
  let main_v100 : FVec F S768 .f32 := broadcastInDim S768 ![] bcast_S_S768 main_cst_38
  let main_v101 : IVec S768 1 := cmpf .olt main_v99 main_v100
  let main_c_39 : IVec S_ 1 := constantI S_ 1 1#1
  fn_part6 (F := F) main_arg12 main_arg16 main_arg20 main_v98 main_v101 main_c_39

def fn_part4 {F : FTy → Type} [FloatOps F] (main_arg12 : FVec F S3072 .f32) (main_arg14 : FVec F S1536 .f32) (main_arg15 : FVec F S1536 .f32) (main_arg16 : FVec F S1536 .f32) (main_arg17 : FVec F S768 .f32) (main_arg18 : FVec F S768 .f32) (main_arg19 : FVec F S768 .f32) (main_arg20 : FVec F S768 .f32) (main_v63 : IVec S_ 1) (main_v67 : IVec S_ 1) : IVec S_ 1 :=
  let main_v68 : IVec S_ 1 := andi main_v63 main_v67
  let main_v69 : FVec F S1536 .f32 := Host.absf main_arg14
  let main_cst_26 : FVec F S_ .f32 := constant S_ .f32 0x7F800000#32
  let main_v70 : FVec F S1536 .f32 := broadcastInDim S1536 ![] bcast_S_S1536 main_cst_26
  let main_v71 : IVec S1536 1 := cmpf .olt main_v69 main_v70
  let main_c_27 : IVec S_ 1 := constantI S_ 1 1#1
  let main_v72 : IVec S_ 1 := (fun x v => Host.reduce IntOp.andi x v reducesTo_S1536_S_d0 h_S_) main_v71 main_c_27
  let main_v73 : IVec S_ 1 := andi main_v68 main_v72
  let main_v74 : FVec F S1536 .f32 := Host.absf main_arg15
  let main_cst_28 : FVec F S_ .f32 := constant S_ .f32 0x7F800000#32
  let main_v75 : FVec F S1536 .f32 := broadcastInDim S1536 ![] bcast_S_S1536 main_cst_28
  let main_v76 : IVec S1536 1 := cmpf .olt main_v74 main_v75
  let main_c_29 : IVec S_ 1 := constantI S_ 1 1#1
  let main_v77 : IVec S_ 1 := (fun x v => Host.reduce IntOp.andi x v reducesTo_S1536_S_d0 h_S_) main_v76 main_c_29
  let main_v78 : IVec S_ 1 := andi main_v73 main_v77
  let main_v79 : FVec F S1536 .f32 := Host.absf main_arg16
  let main_cst_30 : FVec F S_ .f32 := constant S_ .f32 0x7F800000#32
  let main_v80 : FVec F S1536 .f32 := broadcastInDim S1536 ![] bcast_S_S1536 main_cst_30
  let main_v81 : IVec S1536 1 := cmpf .olt main_v79 main_v80
  let main_c_31 : IVec S_ 1 := constantI S_ 1 1#1
  let main_v82 : IVec S_ 1 := (fun x v => Host.reduce IntOp.andi x v reducesTo_S1536_S_d0 h_S_) main_v81 main_c_31
  let main_v83 : IVec S_ 1 := andi main_v78 main_v82
  let main_v84 : FVec F S768 .f32 := Host.absf main_arg17
  let main_cst_32 : FVec F S_ .f32 := constant S_ .f32 0x7F800000#32
  fn_part5 (F := F) main_arg12 main_arg16 main_arg18 main_arg19 main_arg20 main_v83 main_v84 main_cst_32

def fn_part3 {F : FTy → Type} [FloatOps F] (main_arg11 : FVec F S3072 .f32) (main_arg12 : FVec F S3072 .f32) (main_arg13 : FVec F S1536 .f32) (main_arg14 : FVec F S1536 .f32) (main_arg15 : FVec F S1536 .f32) (main_arg16 : FVec F S1536 .f32) (main_arg17 : FVec F S768 .f32) (main_arg18 : FVec F S768 .f32) (main_arg19 : FVec F S768 .f32) (main_arg20 : FVec F S768 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S3072 .f32 := Host.absf main_arg11
  let main_cst_20 : FVec F S_ .f32 := constant S_ .f32 0x7F800000#32
  let main_v55 : FVec F S3072 .f32 := broadcastInDim S3072 ![] bcast_S_S3072 main_cst_20
  let main_v56 : IVec S3072 1 := cmpf .olt main_v54 main_v55
  let main_c_21 : IVec S_ 1 := constantI S_ 1 1#1
  let main_v57 : IVec S_ 1 := (fun x v => Host.reduce IntOp.andi x v reducesTo_S3072_S_d0 h_S_) main_v56 main_c_21
  let main_v58 : IVec S_ 1 := andi main_v53 main_v57
  let main_v59 : FVec F S3072 .f32 := Host.absf main_arg12
  let main_cst_22 : FVec F S_ .f32 := constant S_ .f32 0x7F800000#32
  let main_v60 : FVec F S3072 .f32 := broadcastInDim S3072 ![] bcast_S_S3072 main_cst_22
  let main_v61 : IVec S3072 1 := cmpf .olt main_v59 main_v60
  let main_c_23 : IVec S_ 1 := constantI S_ 1 1#1
  let main_v62 : IVec S_ 1 := (fun x v => Host.reduce IntOp.andi x v reducesTo_S3072_S_d0 h_S_) main_v61 main_c_23
  let main_v63 : IVec S_ 1 := andi main_v58 main_v62
  let main_v64 : FVec F S1536 .f32 := Host.absf main_arg13
  let main_cst_24 : FVec F S_ .f32 := constant S_ .f32 0x7F800000#32
  let main_v65 : FVec F S1536 .f32 := broadcastInDim S1536 ![] bcast_S_S1536 main_cst_24
  let main_v66 : IVec S1536 1 := cmpf .olt main_v64 main_v65
  let main_c_25 : IVec S_ 1 := constantI S_ 1 1#1
  let main_v67 : IVec S_ 1 := (fun x v => Host.reduce IntOp.andi x v reducesTo_S1536_S_d0 h_S_) main_v66 main_c_25
  fn_part4 (F := F) main_arg12 main_arg14 main_arg15 main_arg16 main_arg17 main_arg18 main_arg19 main_arg20 main_v63 main_v67

def fn_part2 {F : FTy → Type} [FloatOps F] (main_arg7 : FVec F S10x768 .f32) (main_arg8 : FVec F S10 .f32) (main_arg9 : FVec F S3072 .f32) (main_arg10 : FVec F S3072 .f32) (main_arg11 : FVec F S3072 .f32) (main_arg12 : FVec F S3072 .f32) (main_arg13 : FVec F S1536 .f32) (main_arg14 : FVec F S1536 .f32) (main_arg15 : FVec F S1536 .f32) (main_arg16 : FVec F S1536 .f32) (main_arg17 : FVec F S768 .f32) (main_arg18 : FVec F S768 .f32) (main_arg19 : FVec F S768 .f32) (main_arg20 : FVec F S768 .f32) (main_v33 : IVec S_ 1) : IVec S_ 1 :=
  let main_v34 : FVec F S10x768 .f32 := Host.absf main_arg7
  let main_cst_12 : FVec F S_ .f32 := constant S_ .f32 0x7F800000#32
  let main_v35 : FVec F S10x768 .f32 := broadcastInDim S10x768 ![] bcast_S_S10x768 main_cst_12
  let main_v36 : IVec S10x768 1 := cmpf .olt main_v34 main_v35
  let main_c_13 : IVec S_ 1 := constantI S_ 1 1#1
  let main_v37 : IVec S_ 1 := (fun x v => Host.reduce IntOp.andi x v reducesTo_S10x768_S_d0_1 h_S_) main_v36 main_c_13
  let main_v38 : IVec S_ 1 := andi main_v33 main_v37
  let main_v39 : FVec F S10 .f32 := Host.absf main_arg8
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_v44 : FVec F S3072 .f32 := Host.absf main_arg9
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S3072 .f32 := Host.absf main_arg10
  let main_cst_18 : FVec F S_ .f32 := constant S_ .f32 0x7F800000#32
  let main_v50 : FVec F S3072 .f32 := broadcastInDim S3072 ![] bcast_S_S3072 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S1536 .f32) (main_arg5 : FVec F S768x1536 .f32) (main_arg6 : FVec F S768 .f32) (main_arg7 : FVec F S10x768 .f32) (main_arg8 : FVec F S10 .f32) (main_arg9 : FVec F S3072 .f32) (main_arg10 : FVec F S3072 .f32) (main_arg11 : FVec F S3072 .f32) (main_arg12 : FVec F S3072 .f32) (main_arg13 : FVec F S1536 .f32) (main_arg14 : FVec F S1536 .f32) (main_arg15 : FVec F S1536 .f32) (main_arg16 : FVec F S1536 .f32) (main_arg17 : FVec F S768 .f32) (main_arg18 : FVec F S768 .f32) (main_arg19 : FVec F S768 .f32) (main_arg20 : FVec F S768 .f32) (main_v13 : IVec S_ 1) (main_v16 : IVec S1536x3072 1) : IVec S_ 1 :=
  let main_c_5 : IVec S_ 1 := constantI S_ 1 1#1
  let main_v17 : IVec S_ 1 := (fun x v => Host.reduce IntOp.andi x v reducesTo_S1536x3072_S_d0_1 h_S_) main_v16 main_c_5
  let main_v18 : IVec S_ 1 := andi main_v13 main_v17
  let main_v19 : FVec F S1536 .f32 := Host.absf main_arg4
  let main_cst_6 : FVec F S_ .f32 := constant S_ .f32 0x7F800000#32
  let main_v20 : FVec F S1536 .f32 := broadcastInDim S1536 ![] bcast_S_S1536 main_cst_6
  let main_v21 : IVec S1536 1 := cmpf .olt main_v19 main_v20
  let main_c_7 : IVec S_ 1 := constantI S_ 1 1#1
  let main_v22 : IVec S_ 1 := (fun x v => Host.reduce IntOp.andi x v reducesTo_S1536_S_d0 h_S_) main_v21 main_c_7
  let main_v23 : IVec S_ 1 := andi main_v18 main_v22
  let main_v24 : FVec F S768x1536 .f32 := Host.absf main_arg5
  let main_cst_8 : FVec F S_ .f32 := constant S_ .f32 0x7F800000#32
  let main_v25 : FVec F S768x1536 .f32 := broadcastInDim S768x1536 ![] bcast_S_S768x1536 main_cst_8
  let main_v26 : IVec S768x1536 1 := cmpf .olt main_v24 main_v25
  let main_c_9 : IVec S_ 1 := constantI S_ 1 1#1
  let main_v27 : IVec S_ 1 := (fun x v => Host.reduce IntOp.andi x v reducesTo_S768x1536_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S16384x784 .f32) (main_arg1 : FVec F S3072x784 .f32) (main_arg2 : FVec F S3072 .f32) (main_arg3 : FVec F S1536x3072 .f32) (main_arg4 : FVec F S1536 .f32) (main_arg5 : FVec F S768x1536 .f32) (main_arg6 : FVec F S768 .f32) (main_arg7 : FVec F S10x768 .f32) (main_arg8 : FVec F S10 .f32) (main_arg9 : FVec F S3072 .f32) (main_arg10 : FVec F S3072 .f32) (main_arg11 : FVec F S3072 .f32) (main_arg12 : FVec F S3072 .f32) (main_arg13 : FVec F S1536 .f32) (main_arg14 : FVec F S1536 .f32) (main_arg15 : FVec F S1536 .f32) (main_arg16 : FVec F S1536 .f32) (main_arg17 : FVec F S768 .f32) (main_arg18 : FVec F S768 .f32) (main_arg19 : FVec F S768 .f32) (main_arg20 : FVec F S768 .f32) : IVec S_ 1 :=
  let main_v0 : FVec F S16384x784 .f32 := Host.absf main_arg0
  let main_cst : FVec F S_ .f32 := constant S_ .f32 0x7F800000#32
  let main_v1 : FVec F S16384x784 .f32 := broadcastInDim S16384x784 ![] bcast_S_S16384x784 main_cst
  let main_v2 : IVec S16384x784 1 := cmpf .olt main_v0 main_v1
  let main_c : IVec S_ 1 := constantI S_ 1 1#1
  let main_v3 : IVec S_ 1 := (fun x v => Host.reduce IntOp.andi x v reducesTo_S16384x784_S_d0_1 h_S_) main_v2 main_c
  let main_v4 : FVec F S3072x784 .f32 := Host.absf main_arg1
  let main_cst_0 : FVec F S_ .f32 := constant S_ .f32 0x7F800000#32
  let main_v5 : FVec F S3072x784 .f32 := broadcastInDim S3072x784 ![] bcast_S_S3072x784 main_cst_0
  let main_v6 : IVec S3072x784 1 := cmpf .olt main_v4 main_v5
  let main_c_1 : IVec S_ 1 := constantI S_ 1 1#1
  let main_v7 : IVec S_ 1 := (fun x v => Host.reduce IntOp.andi x v reducesTo_S3072x784_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1536x3072 .f32 := Host.absf main_arg3
  let main_cst_4 : FVec F S_ .f32 := constant S_ .f32 0x7F800000#32
  let main_v15 : FVec F S1536x3072 .f32 := broadcastInDim S1536x3072 ![] bcast_S_S1536x3072 main_cst_4
  let main_v16 : IVec S1536x3072 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S16384x784 : Shape := ⟨2, ![16384, 784]⟩
abbrev S3072x784 : Shape := ⟨2, ![3072, 784]⟩
abbrev S3072 : Shape := ⟨1, ![3072]⟩
abbrev S1536x3072 : Shape := ⟨2, ![1536, 3072]⟩
abbrev S1536 : Shape := ⟨1, ![1536]⟩
abbrev S768x1536 : Shape := ⟨2, ![768, 1536]⟩
abbrev S768 : Shape := ⟨1, ![768]⟩
abbrev S10x768 : Shape := ⟨2, ![10, 768]⟩
abbrev S10 : Shape := ⟨1, ![10]⟩
abbrev S784x3072 : Shape := ⟨2, ![784, 3072]⟩
abbrev S3072x1536 : Shape := ⟨2, ![3072, 1536]⟩
abbrev S1536x768 : Shape := ⟨2, ![1536, 768]⟩
abbrev S768x10 : Shape := ⟨2, ![768, 10]⟩
abbrev S_ : Shape := ⟨0, ![]⟩
abbrev S1x3072 : Shape := ⟨2, ![1, 3072]⟩
abbrev S1x1536 : Shape := ⟨2, ![1, 1536]⟩
abbrev S1x768 : Shape := ⟨2, ![1, 768]⟩
abbrev S1x10 : Shape := ⟨2, ![1, 10]⟩
abbrev S16384x10 : Shape := ⟨2, ![16384, 10]⟩
abbrev S512x784 : Shape := ⟨2, ![512, 784]⟩
abbrev S512x10 : Shape := ⟨2, ![512, 10]⟩
abbrev S512x3072 : Shape := ⟨2, ![512, 3072]⟩
abbrev S512x1536 : Shape := ⟨2, ![512, 1536]⟩
abbrev S512x768 : Shape := ⟨2, ![512, 768]⟩
abbrev S512 : Shape := ⟨1, ![512]⟩
abbrev S512x1 : Shape := ⟨2, ![512, 1]⟩

abbrev nBuf : Space → Nat
  | .hbm => 67
  | .vmem => 15
  | .smem => 0
  | _ => 0

abbrev bufTy : (tb : Table) → Fin (tcTables nBuf tb) → BufTy
  | .hbm, ⟨0, _⟩ => ⟨S16384x784, .f32⟩
  | .hbm, ⟨1, _⟩ => ⟨S3072x784, .f32⟩
  | .hbm, ⟨2, _⟩ => ⟨S3072, .f32⟩
  | .hbm, ⟨3, _⟩ => ⟨S1536x3072, .f32⟩
  | .hbm, ⟨4, _⟩ => ⟨S1536, .f32⟩
  | .hbm, ⟨5, _⟩ => ⟨S768x1536, .f32⟩
  | .hbm, ⟨6, _⟩ => ⟨S768, .f32⟩
  | .hbm, ⟨7, _⟩ => ⟨S10x768, .f32⟩
  | .hbm, ⟨8, _⟩ => ⟨S10, .f32⟩
  | .hbm, ⟨9, _⟩ => ⟨S3072, .f32⟩
  | .hbm, ⟨10, _⟩ => ⟨S3072, .f32⟩
  | .hbm, ⟨11, _⟩ => ⟨S3072, .f32⟩
  | .hbm, ⟨12, _⟩ => ⟨S3072, .f32⟩
  | .hbm, ⟨13, _⟩ => ⟨S1536, .f32⟩
  | .hbm, ⟨14, _⟩ => ⟨S1536, .f32⟩
  | .hbm, ⟨15, _⟩ => ⟨S1536, .f32⟩
  | .hbm, ⟨16, _⟩ => ⟨S1536, .f32⟩
  | .hbm, ⟨17, _⟩ => ⟨S768, .f32⟩
  | .hbm, ⟨18, _⟩ => ⟨S768, .f32⟩
  | .hbm, ⟨19, _⟩ => ⟨S768, .f32⟩
  | .hbm, ⟨20, _⟩ => ⟨S768, .f32⟩
  | .hbm, ⟨21, _⟩ => ⟨S3072x784, .f32⟩
  | .hbm, ⟨22, _⟩ => ⟨S784x3072, .f32⟩
  | .hbm, ⟨23, _⟩ => ⟨S784x3072, .bf16⟩
  | .hbm, ⟨24, _⟩ => ⟨S1536x3072, .f32⟩
  | .hbm, ⟨25, _⟩ => ⟨S3072x1536, .f32⟩
  | .hbm, ⟨26, _⟩ => ⟨S3072x1536, .bf16⟩
  | .hbm, ⟨27, _⟩ => ⟨S768x1536, .f32⟩
  | .hbm, ⟨28, _⟩ => ⟨S1536x768, .f32⟩
  | .hbm, ⟨29, _⟩ => ⟨S1536x768, .bf16⟩
  | .hbm, ⟨30, _⟩ => ⟨S768x10, .f32⟩
  | .hbm, ⟨31, _⟩ => ⟨S768x10, .bf16⟩
  | .hbm, ⟨32, _⟩ => ⟨S_, .f32⟩
  | .hbm, ⟨33, _⟩ => ⟨S3072, .f32⟩
  | .hbm, ⟨34, _⟩ => ⟨S3072, .f32⟩
  | .hbm, ⟨35, _⟩ => ⟨S3072, .f32⟩
  | .hbm, ⟨36, _⟩ => ⟨S3072, .f32⟩
  | .hbm, ⟨37, _⟩ => ⟨S3072, .f32⟩
  | .hbm, ⟨38, _⟩ => ⟨S3072, .f32⟩
  | .hbm, ⟨39, _⟩ => ⟨S3072, .f32⟩
  | .hbm, ⟨40, _⟩ => ⟨S3072, .f32⟩
  | .hbm, ⟨41, _⟩ => ⟨S1x3072, .f32⟩
  | .hbm, ⟨42, _⟩ => ⟨S1x3072, .f32⟩
  | .hbm, ⟨43, _⟩ => ⟨S_, .f32⟩
  | .hbm, ⟨44, _⟩ => ⟨S1536, .f32⟩
  | .hbm, ⟨45, _⟩ => ⟨S1536, .f32⟩
  | .hbm, ⟨46, _⟩ => ⟨S1536, .f32⟩
  | .hbm, ⟨47, _⟩ => ⟨S1536, .f32⟩
  | .hbm, ⟨48, _⟩ => ⟨S1536, .f32⟩
  | .hbm, ⟨49, _⟩ => ⟨S1536, .f32⟩
  | .hbm, ⟨50, _⟩ => ⟨S1536, .f32⟩
  | .hbm, ⟨51, _⟩ => ⟨S1536, .f32⟩
  | .hbm, ⟨52, _⟩ => ⟨S1x1536, .f32⟩
  | .hbm, ⟨53, _⟩ => ⟨S1x1536, .f32⟩
  | .hbm, ⟨54, _⟩ => ⟨S_, .f32⟩
  | .hbm, ⟨55, _⟩ => ⟨S768, .f32⟩
  | .hbm, ⟨56, _⟩ => ⟨S768, .f32⟩
  | .hbm, ⟨57, _⟩ => ⟨S768, .f32⟩
  | .hbm, ⟨58, _⟩ => ⟨S768, .f32⟩
  | .hbm, ⟨59, _⟩ => ⟨S768, .f32⟩
  | .hbm, ⟨60, _⟩ => ⟨S768, .f32⟩
  | .hbm, ⟨61, _⟩ => ⟨S768, .f32⟩
  | .hbm, ⟨62, _⟩ => ⟨S768, .f32⟩
  | .hbm, ⟨63, _⟩ => ⟨S1x768, .f32⟩
  | .hbm, ⟨64, _⟩ => ⟨S1x768, .f32⟩
  | .hbm, ⟨65, _⟩ => ⟨S1x10, .f32⟩
  | .hbm, ⟨66, _⟩ => ⟨S16384x10, .f32⟩
  | .local _ .vmem, ⟨0, _⟩ => ⟨S512x784, .f32⟩
  | .local _ .vmem, ⟨1, _⟩ => ⟨S512x784, .f32⟩
  | .local _ .vmem, ⟨2, _⟩ => ⟨S784x3072, .bf16⟩
  | .local _ .vmem, ⟨3, _⟩ => ⟨S3072x1536, .bf16⟩
  | .local _ .vmem, ⟨4, _⟩ => ⟨S1536x768, .bf16⟩
  | .local _ .vmem, ⟨5, _⟩ => ⟨S768x10, .bf16⟩
  | .local _ .vmem, ⟨6, _⟩ => ⟨S1x3072, .f32⟩
  | .local _ .vmem, ⟨7, _⟩ => ⟨S1x3072, .f32⟩
  | .local _ .vmem, ⟨8, _⟩ => ⟨S1x1536, .f32⟩
  | .local _ .vmem, ⟨9, _⟩ => ⟨S1x1536, .f32⟩
  | .local _ .vmem, ⟨10, _⟩ => ⟨S1x768, .f32⟩
  | .local _ .vmem, ⟨11, _⟩ => ⟨S1x768, .f32⟩
  | .local _ .vmem, ⟨12, _⟩ => ⟨S1x10, .f32⟩
  | .local _ .vmem, ⟨13, _⟩ => ⟨S512x10, .f32⟩
  | .local _ .vmem, ⟨14, _⟩ => ⟨S512x10, .f32⟩
  | _, _ => ⟨S16384x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_1 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x10 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x10 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x10 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S3072x784_S784x3072_1_0 : S3072x784.Transposes [1, 0] S784x3072
  bitsLt_bf16_f32 : FTy.bits .bf16 < FTy.bits .f32
  transposes_S1536x3072_S3072x1536_1_0 : S1536x3072.Transposes [1, 0] S3072x1536
  transposes_S768x1536_S1536x768_1_0 : S768x1536.Transposes [1, 0] S1536x768
  transposes_S10x768_S768x10_1_0 : S10x768.Transposes [1, 0] S768x10
  bcast_S_S3072 : S_.BroadcastsInDim S3072 (![] : Fin 0 → Fin S3072.rank)
  shapeCasts_S3072_S1x3072 : S3072.ShapeCasts S1x3072
  bcast_S_S1536 : S_.BroadcastsInDim S1536 (![] : Fin 0 → Fin S1536.rank)
  shapeCasts_S1536_S1x1536 : S1536.ShapeCasts S1x1536
  bcast_S_S768 : S_.BroadcastsInDim S768 (![] : Fin 0 → Fin S768.rank)
  shapeCasts_S768_S1x768 : S768.ShapeCasts S1x768
  shapeCasts_S10_S1x10 : S10.ShapeCasts S1x10
  inb_S512x784_S512x784_0_0 : ∀ a, (![0, 0] : Fin 2 → Nat) a + S512x784.size a ≤ S512x784.size a
  h_S512x784 : 0 < S512x784.numel
  inb_S784x3072_S784x3072_0_0 : ∀ a, (![0, 0] : Fin 2 → Nat) a + S784x3072.size a ≤ S784x3072.size a
  h_S784x3072 : 0 < S784x3072.numel
  shapeCasts_S784x3072_S784x3072 : S784x3072.ShapeCasts S784x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S3072x1536_S3072x1536_0_0 : ∀ a, (![0, 0] : Fin 2 → Nat) a + S3072x1536.size a ≤ S3072x1536.size a
  h_S3072x1536 : 0 < S3072x1536.numel
  shapeCasts_S3072x1536_S3072x1536 : S3072x1536.ShapeCasts S3072x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S512x1536 : S1x1536.Broadcasts S512x1536
  inb_S1536x768_S1536x768_0_0 : ∀ a, (![0, 0] : Fin 2 → Nat) a + S1536x768.size a ≤ S1536x768.size a
  h_S1536x768 : 0 < S1536x768.numel
  shapeCasts_S1536x768_S1536x768 : S1536x768.ShapeCasts S1536x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  inb_S768x10_S768x10_0_0 : ∀ a, (![0, 0] : Fin 2 → Nat) a + S768x10.size a ≤ S768x10.size a
  h_S768x10 : 0 < S768x10.numel
  shapeCasts_S768x10_S768x10 : S768x10.ShapeCasts S768x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  reduces_S512x10_S512 : S512x10.Reduces [1] S512
  shapeCasts_S512_S512x1 : S512.ShapeCasts S512x1
  broadcasts_S512x1_S512x10 : S512x1.Broadcasts S512x10
  inb_S512x10_S512x10_0_0 : ∀ a, (![0, 0] : Fin 2 → Nat) a + S512x10.size a ≤ S512x10.size a
  h_S512x10 : 0 < S512x10.numel
  dot_S512x784_S784x3072_S512x3072_1_0_0_1_n_n_wf : DotDims.WF S512x784 S784x3072 S512x3072 [1] [0] [0] [1] [] []
  dot_S512x3072_S3072x1536_S512x1536_1_0_0_1_n_n_wf : DotDims.WF S512x3072 S3072x1536 S512x1536 [1] [0] [0] [1] [] []
  dot_S512x1536_S1536x768_S512x768_1_0_0_1_n_n_wf : DotDims.WF S512x1536 S1536x768 S512x768 [1] [0] [0] [1] [] []
  dot_S512x768_S768x10_S512x10_1_0_0_1_n_n_wf : DotDims.WF S512x768 S768x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x784.size a ≤ S16384x784.size a
  hwx0_0 : ∀ i : grid0.Coords, EltTy.bits .f32 = 32 ∨ (Rect.block (s := S16384x784) S512x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x3072.size a ≤ S784x3072.size a
  hwx0_1 : ∀ i : grid0.Coords, EltTy.bits .bf16 = 32 ∨ (Rect.block (s := S784x3072) S784x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072x1536.size a ≤ S3072x1536.size a
  hwx0_2 : ∀ i : grid0.Coords, EltTy.bits .bf16 = 32 ∨ (Rect.block (s := S3072x1536) S3072x1536.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1536x768.size a ≤ S1536x768.size a
  hwx0_3 : ∀ i : grid0.Coords, EltTy.bits .bf16 = 32 ∨ (Rect.block (s := S1536x768) S1536x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x10.size a ≤ S768x10.size a
  hwx0_4 : ∀ i : grid0.Coords, EltTy.bits .bf16 = 32 ∨ (Rect.block (s := S768x10) S768x10.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x3072.size a ≤ S1x3072.size a
  hwx0_5 : ∀ i : grid0.Coords, EltTy.bits .f32 = 32 ∨ (Rect.block (s := S1x3072) S1x3072.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3072.size a ≤ S1x3072.size a
  hwx0_6 : ∀ i : grid0.Coords, EltTy.bits .f32 = 32 ∨ (Rect.block (s := S1x3072) S1x3072.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1536.size a ≤ S1x1536.size a
  hwx0_7 : ∀ i : grid0.Coords, EltTy.bits .f32 = 32 ∨ (Rect.block (s := S1x1536) S1x1536.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1536.size a ≤ S1x1536.size a
  hwx0_8 : ∀ i : grid0.Coords, EltTy.bits .f32 = 32 ∨ (Rect.block (s := S1x1536) S1x1536.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x768.size a ≤ S1x768.size a
  hwx0_9 : ∀ i : grid0.Coords, EltTy.bits .f32 = 32 ∨ (Rect.block (s := S1x768) S1x768.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x768.size a ≤ S1x768.size a
  hwx0_10 : ∀ i : grid0.Coords, EltTy.bits .f32 = 32 ∨ (Rect.block (s := S1x768) S1x768.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x10.size a ≤ S1x10.size a
  hwx0_11 : ∀ i : grid0.Coords, EltTy.bits .f32 = 32 ∨ (Rect.block (s := S1x10) S1x10.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x10.size a ≤ S16384x10.size a
  hwx0_12 : ∀ i : grid0.Coords, EltTy.bits .f32 = 32 ∨ (Rect.block (s := S16384x10) S512x10.size (cc0_transform_12 i) (hinb0_12 i)).WholeWords (EltTy.packing .f32)

variable [Facts₀]

def dot_S512x784_S784x3072_S512x3072_1_0_0_1_n_n : DotDims S512x784 S784x3072 S512x3072 where
  lhsContracting := [1]
  rhsContracting := [0]
  lhsNonContracting := [0]
  rhsNonContracting := [1]
  lhsBatch := []
  rhsBatch := []
  wf := dot_S512x784_S784x3072_S512x3072_1_0_0_1_n_n_wf
def dot_S512x3072_S3072x1536_S512x1536_1_0_0_1_n_n : DotDims S512x3072 S3072x1536 S512x1536 where
  lhsContracting := [1]
  rhsContracting := [0]
  lhsNonContracting := [0]
  rhsNonContracting := [1]
  lhsBatch := []
  rhsBatch := []
  wf := dot_S512x3072_S3072x1536_S512x1536_1_0_0_1_n_n_wf
def dot_S512x1536_S1536x768_S512x768_1_0_0_1_n_n : DotDims S512x1536 S1536x768 S512x768 where
  lhsContracting := [1]
  rhsContracting := [0]
  lhsNonContracting := [0]
  rhsNonContracting := [1]
  lhsBatch := []
  rhsBatch := []
  wf := dot_S512x1536_S1536x768_S512x768_1_0_0_1_n_n_wf
def dot_S512x768_S768x10_S512x10_1_0_0_1_n_n : DotDims S512x768 S768x10 S512x10 where
  lhsContracting := [1]
  rhsContracting := [0]
  lhsNonContracting := [0]
  rhsNonContracting := [1]
  lhsBatch := []
  rhsBatch := []
  wf := dot_S512x768_S768x10_S512x10_1_0_0_1_n_n_wf

abbrev win0_0 : Pipeline.Window sig grid0 :=
  Pipeline.Window.ofSpec (Memref.whole main_arg0) S512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S784x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S3072x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1536x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S768x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x3072.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S1x1536.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v30) S1x1536.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v39) S1x768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v40) S1x768.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v41) S1x10.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v42) S512x10.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x784 : Shape := ⟨2, ![16384, 784]⟩
abbrev S3072x784 : Shape := ⟨2, ![3072, 784]⟩
abbrev S3072 : Shape := ⟨1, ![3072]⟩
abbrev S1536x3072 : Shape := ⟨2, ![1536, 3072]⟩
abbrev S1536 : Shape := ⟨1, ![1536]⟩
abbrev S768x1536 : Shape := ⟨2, ![768, 1536]⟩
abbrev S768 : Shape := ⟨1, ![768]⟩
abbrev S10x768 : Shape := ⟨2, ![10, 768]⟩
abbrev S10 : Shape := ⟨1, ![10]⟩
abbrev S784x3072 : Shape := ⟨2, ![784, 3072]⟩
abbrev S16384x3072 : Shape := ⟨2, ![16384, 3072]⟩
abbrev S1x3072 : Shape := ⟨2, ![1, 3072]⟩
abbrev S_ : Shape := ⟨0, ![]⟩
abbrev S3072x1536 : Shape := ⟨2, ![3072, 1536]⟩
abbrev S16384x1536 : Shape := ⟨2, ![16384, 1536]⟩
abbrev S1x1536 : Shape := ⟨2, ![1, 1536]⟩
abbrev S1536x768 : Shape := ⟨2, ![1536, 768]⟩
abbrev S16384x768 : Shape := ⟨2, ![16384, 768]⟩
abbrev S1x768 : Shape := ⟨2, ![1, 768]⟩
abbrev S768x10 : Shape := ⟨2, ![768, 10]⟩
abbrev S16384x10 : Shape := ⟨2, ![16384, 10]⟩
abbrev S1x10 : Shape := ⟨2, ![1, 10]⟩
abbrev S16384 : Shape := ⟨1, ![16384]⟩
abbrev S16384x1 : Shape := ⟨2, ![16384, 1]⟩

abbrev nBuf : Space → Nat
  | .hbm => 133
  | .vmem => 0
  | .smem => 0
  | _ => 0

abbrev hbmTy0_0 (i : Nat) : BufTy := match i % 128 with
  | 0 => ⟨S16384x784, .f32⟩
  | 1 => ⟨S3072x784, .f32⟩
  | 2 => ⟨S3072, .f32⟩
  | 3 => ⟨S1536x3072, .f32⟩
  | 4 => ⟨S1536, .f32⟩
  | 5 => ⟨S768x1536, .f32⟩
  | 6 => ⟨S768, .f32⟩
  | 7 => ⟨S10x768, .f32⟩
  | 8 => ⟨S10, .f32⟩
  | 9 => ⟨S3072, .f32⟩
  | 10 => ⟨S3072, .f32⟩
  | 11 => ⟨S3072, .f32⟩
  | 12 => ⟨S3072, .f32⟩
  | 13 => ⟨S1536, .f32⟩
  | 14 => ⟨S1536, .f32⟩
  | 15 => ⟨S1536, .f32⟩
  | 16 => ⟨S1536, .f32⟩
  | 17 => ⟨S768, .f32⟩
  | 18 => ⟨S768, .f32⟩
  | 19 => ⟨S768, .f32⟩
  | 20 => ⟨S768, .f32⟩
  | 21 => ⟨S3072x784, .f32⟩
  | 22 => ⟨S784x3072, .f32⟩
  | 23 => ⟨S16384x3072, .f32⟩
  | 24 => ⟨S1x3072, .f32⟩
  | 25 => ⟨S16384x3072, .f32⟩
  | 26 => ⟨S16384x3072, .f32⟩
  | 27 => ⟨S1x3072, .f32⟩
  | 28 => ⟨S16384x3072, .f32⟩
  | 29 => ⟨S16384x3072, .f32⟩
  | 30 => ⟨S1x3072, .f32⟩
  | 31 => ⟨S16384x3072, .f32⟩
  | 32 => ⟨S16384x3072, .f32⟩
  | 33 => ⟨S_, .f32⟩
  | 34 => ⟨S3072, .f32⟩
  | 35 => ⟨S3072, .f32⟩
  | 36 => ⟨S3072, .f32⟩
  | 37 => ⟨S1x3072, .f32⟩
  | 38 => ⟨S16384x3072, .f32⟩
  | 39 => ⟨S16384x3072, .f32⟩
  | 40 => ⟨S1x3072, .f32⟩
  | 41 => ⟨S16384x3072, .f32⟩
  | 42 => ⟨S16384x3072, .f32⟩
  | 43 => ⟨S_, .f32⟩
  | 44 => ⟨S_, .f32⟩
  | 45 => ⟨S_, .f32⟩
  | 46 => ⟨S16384x3072, .f32⟩
  | 47 => ⟨S16384x3072, .f32⟩
  | 48 => ⟨S_, .f32⟩
  | 49 => ⟨S16384x3072, .f32⟩
  | 50 => ⟨S16384x3072, .f32⟩
  | 51 => ⟨S16384x3072, .f32⟩
  | 52 => ⟨S1536x3072, .f32⟩
  | 53 => ⟨S3072x1536, .f32⟩
  | 54 => ⟨S16384x1536, .f32⟩
  | 55 => ⟨S1x1536, .f32⟩
  | 56 => ⟨S16384x1536, .f32⟩
  | 57 => ⟨S16384x1536, .f32⟩
  | 58 => ⟨S1x1536, .f32⟩
  | 59 => ⟨S16384x1536, .f32⟩
  | 60 => ⟨S16384x1536, .f32⟩
  | 61 => ⟨S1x1536, .f32⟩
  | 62 => ⟨S16384x1536, .f32⟩
  | 63 => ⟨S16384x1536, .f32⟩
  | 64 => ⟨S_, .f32⟩
  | 65 => ⟨S1536, .f32⟩
  | 66 => ⟨S1536, .f32⟩
  | 67 => ⟨S1536, .f32⟩
  | 68 => ⟨S1x1536, .f32⟩
  | 69 => ⟨S16384x1536, .f32⟩
  | 70 => ⟨S16384x1536, .f32⟩
  | 71 => ⟨S1x1536, .f32⟩
  | 72 => ⟨S16384x1536, .f32⟩
  | 73 => ⟨S16384x1536, .f32⟩
  | 74 => ⟨S_, .f32⟩
  | 75 => ⟨S_, .f32⟩
  | 76 => ⟨S_, .f32⟩
  | 77 => ⟨S16384x1536, .f32⟩
  | 78 => ⟨S16384x1536, .f32⟩
  | 79 => ⟨S_, .f32⟩
  | 80 => ⟨S16384x1536, .f32⟩
  | 81 => ⟨S16384x1536, .f32⟩
  | 82 => ⟨S16384x1536, .f32⟩
  | 83 => ⟨S768x1536, .f32⟩
  | 84 => ⟨S1536x768, .f32⟩
  | 85 => ⟨S16384x768, .f32⟩
  | 86 => ⟨S1x768, .f32⟩
  | 87 => ⟨S16384x768, .f32⟩
  | 88 => ⟨S16384x768, .f32⟩
  | 89 => ⟨S1x768, .f32⟩
  | 90 => ⟨S16384x768, .f32⟩
  | 91 => ⟨S16384x768, .f32⟩
  | 92 => ⟨S1x768, .f32⟩
  | 93 => ⟨S16384x768, .f32⟩
  | 94 => ⟨S16384x768, .f32⟩
  | 95 => ⟨S_, .f32⟩
  | 96 => ⟨S768, .f32⟩
  | 97 => ⟨S768, .f32⟩
  | 98 => ⟨S768, .f32⟩
  | 99 => ⟨S1x768, .f32⟩
  | 100 => ⟨S16384x768, .f32⟩
  | 101 => ⟨S16384x768, .f32⟩
  | 102 => ⟨S1x768, .f32⟩
  | 103 => ⟨S16384x768, .f32⟩
  | 104 => ⟨S16384x768, .f32⟩
  | 105 => ⟨S_, .f32⟩
  | 106 => ⟨S_, .f32⟩
  | 107 => ⟨S_, .f32⟩
  | 108 => ⟨S16384x768, .f32⟩
  | 109 => ⟨S16384x768, .f32⟩
  | 110 => ⟨S_, .f32⟩
  | 111 => ⟨S16384x768, .f32⟩
  | 112 => ⟨S16384x768, .f32⟩
  | 113 => ⟨S768x10, .f32⟩
  | 114 => ⟨S16384x10, .f32⟩
  | 115 => ⟨S1x10, .f32⟩
  | 116 => ⟨S16384x10, .f32⟩
  | 117 => ⟨S16384x10, .f32⟩
  | 118 => ⟨S_, .f32⟩
  | 119 => ⟨S16384, .f32⟩
  | 120 => ⟨S_, .f32⟩
  | 121 => ⟨S16384, .f32⟩
  | 122 => ⟨S16384, .f32⟩
  | 123 => ⟨S16384x1, .f32⟩
  | 124 => ⟨S16384x10, .f32⟩
  | 125 => ⟨S16384x10, .f32⟩
  | 126 => ⟨S16384x10, .f32⟩
  | 127 => ⟨S_, .f32⟩
  | _ => ⟨S16384x784, .f32⟩

abbrev hbmTy0_1 (i : Nat) : BufTy := match i % 128 with
  | 0 => ⟨S16384, .f32⟩
  | 1 => ⟨S16384x1, .f32⟩
  | 2 => ⟨S16384x1, .f32⟩
  | 3 => ⟨S16384x10, .f32⟩
  | 4 => ⟨S16384x10, .f32⟩
  | _ => ⟨S16384x784, .f32⟩

abbrev hbmTy (i : Nat) : BufTy := match i / 128 with
  | 0 => hbmTy0_0 i
  | 1 => hbmTy0_1 i
  | _ => ⟨S16384x784, .f32⟩

abbrev bufTy : (tb : Table) → Fin (tcTables nBuf tb) → BufTy
  | .hbm, ⟨i, _⟩ => hbmTy i
  | _, _ => ⟨S16384x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_0 : Ref sig .tc := ⟨.hbm, 43, rfl⟩
abbrev main_cst_1 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_2 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_3 : Ref sig .tc := ⟨.hbm, 74, rfl⟩
abbrev main_cst_4 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_5 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_6 : Ref sig .tc := ⟨.hbm, 105, rfl⟩
abbrev main_cst_7 : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_call3_cst : Ref sig .tc := ⟨.hbm, 118, rfl⟩
abbrev main_call3_v0 : Ref sig .tc := ⟨.hbm, 119, rfl⟩
abbrev main_call3_cst_0 : Ref sig .tc := ⟨.hbm, 120, rfl⟩
abbrev main_call3_v1 : Ref sig .tc := ⟨.hbm, 121, rfl⟩
abbrev main_call3_v2 : Ref sig .tc := ⟨.hbm, 122, rfl⟩
abbrev main_call3_v3 : Ref sig .tc := ⟨.hbm, 123, rfl⟩
abbrev main_call3_v4 : Ref sig .tc := ⟨.hbm, 124, rfl⟩
abbrev main_call3_v5 : Ref sig .tc := ⟨.hbm, 125, rfl⟩
abbrev main_call3_v6 : Ref sig .tc := ⟨.hbm, 126, rfl⟩
abbrev main_call3_cst_1 : Ref sig .tc := ⟨.hbm, 127, rfl⟩
abbrev main_call3_v7 : Ref sig .tc := ⟨.hbm, 128, rfl⟩
abbrev main_call3_v8 : Ref sig .tc := ⟨.hbm, 129, rfl⟩
abbrev main_call3_v9 : Ref sig .tc := ⟨.hbm, 130, rfl⟩
abbrev main_call3_v10 : Ref sig .tc := ⟨.hbm, 131, rfl⟩
abbrev main_v73 : Ref sig .tc := ⟨.hbm, 132, rfl⟩

abbrev nD : Nat := 1
abbrev τ : Topo := Topo.v7x

variable {F : FTy → Type} [FloatOps F]

class Facts₀ : Prop where
  transposes_S3072x784_S784x3072_1_0 : S3072x784.Transposes [1, 0] S784x3072
  bcast_S3072_S1x3072_1 : S3072.BroadcastsInDim S1x3072 (![1] : Fin 1 → Fin S1x3072.rank)
  bcast_S1x3072_S16384x3072_0_1 : S1x3072.BroadcastsInDim S16384x3072 (![0, 1] : Fin 2 → Fin S16384x3072.rank)
  bcast_S_S3072 : S_.BroadcastsInDim S3072 (![] : Fin 0 → Fin S3072.rank)
  bcast_S_S16384x3072 : S_.BroadcastsInDim S16384x3072 (![] : Fin 0 → Fin S16384x3072.rank)
  transposes_S1536x3072_S3072x1536_1_0 : S1536x3072.Transposes [1, 0] S3072x1536
  bcast_S1536_S1x1536_1 : S1536.BroadcastsInDim S1x1536 (![1] : Fin 1 → Fin S1x1536.rank)
  bcast_S1x1536_S16384x1536_0_1 : S1x1536.BroadcastsInDim S16384x1536 (![0, 1] : Fin 2 → Fin S16384x1536.rank)
  bcast_S_S1536 : S_.BroadcastsInDim S1536 (![] : Fin 0 → Fin S1536.rank)
  bcast_S_S16384x1536 : S_.BroadcastsInDim S16384x1536 (![] : Fin 0 → Fin S16384x1536.rank)
  transposes_S768x1536_S1536x768_1_0 : S768x1536.Transposes [1, 0] S1536x768
  bcast_S768_S1x768_1 : S768.BroadcastsInDim S1x768 (![1] : Fin 1 → Fin S1x768.rank)
  bcast_S1x768_S16384x768_0_1 : S1x768.BroadcastsInDim S16384x768 (![0, 1] : Fin 2 → Fin S16384x768.rank)
  bcast_S_S768 : S_.BroadcastsInDim S768 (![] : Fin 0 → Fin S768.rank)
  bcast_S_S16384x768 : S_.BroadcastsInDim S16384x768 (![] : Fin 0 → Fin S16384x768.rank)
  transposes_S10x768_S768x10_1_0 : S10x768.Transposes [1, 0] S768x10
  bcast_S10_S1x10_1 : S10.BroadcastsInDim S1x10 (![1] : Fin 1 → Fin S1x10.rank)
  bcast_S1x10_S16384x10_0_1 : S1x10.BroadcastsInDim S16384x10 (![0, 1] : Fin 2 → Fin S16384x10.rank)
  reducesTo_S16384x10_S16384_d1 : S16384x10.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x10_0_1 : S16384x1.BroadcastsInDim S16384x10 (![0, 1] : Fin 2 → Fin S16384x10.rank)
  dot_S16384x784_S784x3072_S16384x3072_1_0_0_1_n_n_wf : DotDims.WF S16384x784 S784x3072 S16384x3072 [1] [0] [0] [1] [] []
  dot_S16384x3072_S3072x1536_S16384x1536_1_0_0_1_n_n_wf : DotDims.WF S16384x3072 S3072x1536 S16384x1536 [1] [0] [0] [1] [] []
  dot_S16384x1536_S1536x768_S16384x768_1_0_0_1_n_n_wf : DotDims.WF S16384x1536 S1536x768 S16384x768 [1] [0] [0] [1] [] []
  dot_S16384x768_S768x10_S16384x10_1_0_0_1_n_n_wf : DotDims.WF S16384x768 S768x10 S16384x10 [1] [0] [0] [1] [] []

variable [Facts₀]

def dot_S16384x784_S784x3072_S16384x3072_1_0_0_1_n_n : DotDims S16384x784 S784x3072 S16384x3072 where
  lhsContracting := [1]
  rhsContracting := [0]
  lhsNonContracting := [0]
  rhsNonContracting := [1]
  lhsBatch := []
  rhsBatch := []
  wf := dot_S16384x784_S784x3072_S16384x3072_1_0_0_1_n_n_wf
def dot_S16384x3072_S3072x1536_S16384x1536_1_0_0_1_n_n : DotDims S16384x3072 S3072x1536 S16384x1536 where
  lhsContracting := [1]
  rhsContracting := [0]
  lhsNonContracting := [0]
  rhsNonContracting := [1]
  lhsBatch := []
  rhsBatch := []
  wf := dot_S16384x3072_S3072x1536_S16384x1536_1_0_0_1_n_n_wf
def dot_S16384x1536_S1536x768_S16384x768_1_0_0_1_n_n : DotDims S16384x1536 S1536x768 S16384x768 where
  lhsContracting := [1]
  rhsContracting := [0]
  lhsNonContracting := [0]
  rhsNonContracting := [1]
  lhsBatch := []
  rhsBatch := []
  wf := dot_S16384x1536_S1536x768_S16384x768_1_0_0_1_n_n_wf
def dot_S16384x768_S768x10_S16384x10_1_0_0_1_n_n : DotDims S16384x768 S768x10 S16384x10 where
  lhsContracting := [1]
  rhsContracting := [0]
  lhsNonContracting := [0]
  rhsNonContracting := [1]
  lhsBatch := []
  rhsBatch := []
  wf := dot_S16384x768_S768x10_S16384x10_1_0_0_1_n_n_wf

class Facts : Prop extends Facts₀ where

variable [Facts]
-- ==== Proof.Spec.lean ====
/-
  The network both programs compute, one batch row at a time, on the extended reals.

  A binarized layer keeps the signs of its weights; its linear map of a row `h` is `∑ₖ h k · sign (w j k)`.  After it
  come the bias and a batch normalisation with stored statistics: `g · (d + b − μ) · rstd + β` with
  `rstd = rsqrt (v + ε)`.  The same affine map can be written with the normalisation folded into one scale and one
  shift per output, `d · (g · rstd) + (b · (g · rstd) + (β − μ · (g · rstd)))`; the two agree whenever every quantity is
  a real number (`Layer.kerPre_eq_refPre`, in Algebra).  A hard clip to [−1, 1] follows; since the clip keeps the sign,
  `sign (clip y) = sign y`, the next binarized layer may take the sign of the unclipped value.  The last layer is an
  ordinary linear map with bias, and the result is its log-softmax, written either as `(ℓ c − M) − log ∑ exp (ℓ c' − M)`
  or as `ℓ c − (M + log ∑ exp (ℓ c' − M))` with `M` the row maximum.
-/
import Idealize.ShloMosaic.PureOps.Ideal
import Idealize.ShloMosaic.PureOps.Ideal.Laws

noncomputable section

open scoped BigOperators

namespace Cert.Mlp

open Idealize.ShloMosaic

/-- The parameters of one binarized layer with its batch normalisation: weights `w j k` (output `j`, input `k`), bias,
    and the normalisation's gain, offset, stored mean and stored variance. -/
structure Layer (nin nout : ℕ) where
  w : Fin nout → Fin nin → EReal
  b : Fin nout → EReal
  g : Fin nout → EReal
  be : Fin nout → EReal
  mu : Fin nout → EReal
  v : Fin nout → EReal

variable {nin nout : ℕ}

/-- The hard clip to [−1, 1]. -/
def clip (x : EReal) : EReal := min 1 (max (-1) x)

/-- The binarized linear map of a row: `∑ₖ h k · sign (w j k)`. -/
def Layer.lin (L : Layer nin nout) (h : Fin nin → EReal) (j : Fin nout) : EReal := ∑ k, h k * Ideal.sign (L.w j k)

/-- The reciprocal standard deviation `rsqrt (v + ε)`. -/
def Layer.rstd (L : Layer nin nout) (eps : EReal) (j : Fin nout) : EReal := Ideal.rsqrt (L.v j + eps)

/-- Bias, then batch normalisation, as the reference writes it: `g · (d + b − μ) · rstd + β`. -/
def Layer.refPre (L : Layer nin nout) (eps : EReal) (h : Fin nin → EReal) (j : Fin nout) : EReal :=
  L.g j * (L.lin h j + L.b j - L.mu j) * L.rstd eps j + L.be j

/-- The folded scale `g · rstd`. -/
def Layer.scale (L : Layer nin nout) (eps : EReal) (j : Fin nout) : EReal := L.g j * L.rstd eps j

/-- The folded shift `b · scale + (β − μ · scale)`. -/
def Layer.shift (L : Layer nin nout) (eps : EReal) (j : Fin nout) : EReal :=
  L.b j * L.scale eps j + (L.be j - L.mu j * L.scale eps j)

/-- The same affine map with the normalisation folded: `d · scale + shift`. -/
def Layer.kerPre (L : Layer nin nout) (eps : EReal) (h : Fin nin → EReal) (j : Fin nout) : EReal :=
  L.lin h j * L.scale eps j + L.shift eps j

/-- The folded form on an input split into itself and the remainder `x − x`: the linear map of the row plus the linear
    map of the remainder. -/
def Layer.kerPre1 (L : Layer nin nout) (eps : EReal) (x : Fin nin → EReal) (j : Fin nout) : EReal :=
  (L.lin x j + L.lin (fun k => x k - x k) j) * L.scale eps j + L.shift eps j

/-- The last, ordinary linear layer: `∑ₖ h k · w c k + b c`. -/
def logits {n3 n4 : ℕ} (w : Fin n4 → Fin n3 → EReal) (b : Fin n4 → EReal) (h : Fin n3 → EReal) (c : Fin n4) : EReal :=
  (∑ k, h k * w c k) + b c

/-- The maximum of a row, from `−∞`. -/
def rowMax {n : ℕ} (l : Fin n → EReal) : EReal := (Finset.univ : Finset (Fin n)).fold max ⊥ l

/-- Log-softmax as `(ℓ c − M) − log ∑ exp (ℓ c' − M)`. -/
def lsmRef {n : ℕ} (l : Fin n → EReal) (c : Fin n) : EReal :=
  (l c - rowMax l) - Ideal.log (∑ c', Ideal.exp (l c' - rowMax l))

/-- Log-softmax as `ℓ c − (M + log ∑ exp (ℓ c' − M))`. -/
def lsmKer {n : ℕ} (l : Fin n → EReal) (c : Fin n) : EReal :=
  l c - (rowMax l + Ideal.log (∑ c', Ideal.exp (l c' - rowMax l)))

/-- The whole network's parameters: three binarized layers, the last linear layer, and the normalisation's `ε`. -/
structure Net (n0 n1 n2 n3 n4 : ℕ) where
  l1 : Layer n0 n1
  l2 : Layer n1 n2
  l3 : Layer n2 n3
  w4 : Fin n4 → Fin n3 → EReal
  b4 : Fin n4 → EReal
  eps : EReal

variable {n0 n1 n2 n3 n4 : ℕ}

/-- The third layer's clipped activations as the reference computes them, from a row `x`. -/
def Net.refHidden (N : Net n0 n1 n2 n3 n4) (x : Fin n0 → EReal) (k : Fin n3) : EReal :=
  clip (N.l3.refPre N.eps (fun k2 => Ideal.sign (clip (N.l2.refPre N.eps
    (fun k1 => Ideal.sign (clip (N.l1.refPre N.eps x k1))) k2))) k)

/-- One row of the reference's result. -/
def Net.refRow (N : Net n0 n1 n2 n3 n4) (x : Fin n0 → EReal) : Fin n4 → EReal :=
  lsmRef (logits N.w4 N.b4 (N.refHidden x))

/-- The third layer's clipped activations as the kernel computes them, from a row `x`. -/
def Net.kerHidden (N : Net n0 n1 n2 n3 n4) (x : Fin n0 → EReal) (k : Fin n3) : EReal :=
  clip (N.l3.kerPre N.eps (fun k2 => Ideal.sign (N.l2.kerPre N.eps
    (fun k1 => Ideal.sign (N.l1.kerPre1 N.eps x k1)) k2)) k)

/-- One row of the kernel's result. -/
def Net.kerRow (N : Net n0 n1 n2 n3 n4) (x : Fin n0 → EReal) : Fin n4 → EReal :=
  lsmKer (logits N.w4 N.b4 (N.kerHidden x))

end Cert.Mlp

end
-- ==== Proof.NetOf.lean ====
/-
  The network's parameters read off the twenty parameter arrays of the two programs (weights `[out, in]`, vectors
  `[out]`), and the two whole-array results: entry `(r, c)` is row `r` of the input put through the network.
-/
import Idealize.ShloMosaic.PureOps.Ideal
import Idealize.ShloMosaic.Lib.ValueIdx
import proofs.«105552_j3582002725506_2_alg».proof.Proof.Spec

noncomputable section

namespace Cert.Mlp

open Idealize.ShloMosaic Idealize.ShloMosaic.ValueIdx

/-- A layer's parameters from its six arrays. -/
def layerOf {nin nout : ℕ} (w : (⟨2, ![nout, nin]⟩ : Shape).Idx → EReal) (b g be mu v : (⟨1, ![nout]⟩ : Shape).Idx → EReal) :
    Layer nin nout :=
  ⟨fun j k => w (ix2 j k), fun j => b (ix1 j), fun j => g (ix1 j), fun j => be (ix1 j), fun j => mu (ix1 j), fun j => v (ix1 j)⟩

/-- The network from the twenty parameter arrays, in the programs' argument order; `ε` is the single-precision word of
    `1e-5`. -/
def netOf
    (w1 : (⟨2, ![3072, 784]⟩ : Shape).Idx → EReal) (b1 : (⟨1, ![3072]⟩ : Shape).Idx → EReal)
    (w2 : (⟨2, ![1536, 3072]⟩ : Shape).Idx → EReal) (b2 : (⟨1, ![1536]⟩ : Shape).Idx → EReal)
    (w3 : (⟨2, ![768, 1536]⟩ : Shape).Idx → EReal) (b3 : (⟨1, ![768]⟩ : Shape).Idx → EReal)
    (w4 : (⟨2, ![10, 768]⟩ : Shape).Idx → EReal) (b4 : (⟨1, ![10]⟩ : Shape).Idx → EReal)
    (g1 be1 m1 v1 : (⟨1, ![3072]⟩ : Shape).Idx → EReal)
    (g2 be2 m2 v2 : (⟨1, ![1536]⟩ : Shape).Idx → EReal)
    (g3 be3 m3 v3 : (⟨1, ![768]⟩ : Shape).Idx → EReal) : Net 784 3072 1536 768 10 where
  l1 := layerOf w1 b1 g1 be1 m1 v1
  l2 := layerOf w2 b2 g2 be2 m2 v2
  l3 := layerOf w3 b3 g3 be3 m3 v3
  w4 := fun c k => w4 (ix2 c k)
  b4 := fun c => b4 (ix1 c)
  eps := Ideal.ofBits .f32 0x3727C5AC#32

/-- Row `r` of the input array. -/
def rowOf (x : (⟨2, ![16384, 784]⟩ : Shape).Idx → EReal) (r : Fin 16384) : Fin 784 → EReal := fun k => x (ix2 r k)

end Cert.Mlp

end
-- ==== Proof.LibReal.lean ====
/-
  Real entries of extended-real arrays.

  * `IsReal x`: the extended real `x` is a real number; closed under sums, products, maxima and finite sums; the
    zero word of single precision is real; `|x| < +∞` makes `x` real; the coercion of the reals commutes with finite sums;
  * the usual finiteness precondition read entry by entry: where `all (|x| < +∞)` — the comparison of `|x|` with the
    broadcast `+∞` word, reduced by `and` from 1 over all axes into the scalar shape — is 1, every entry of `x` is real
    (`real_of_entry`, `real_of_all`), for an array of any shape.
-/
import Idealize.ShloMosaic.PureOps.Ideal
import Idealize.ShloMosaic.PureOps.Ideal.Laws
import Idealize.ShloMosaic.Lib.ValueIdx
import Idealize.ShloMosaic.Lib.ReduceAll

noncomputable section

namespace Cert.LibReal

open Idealize.ShloMosaic

/-- An extended real that is a real number. -/
def IsReal (x : EReal) : Prop := ∃ r : ℝ, x = (r : EReal)

theorem isReal_coe (r : ℝ) : IsReal (r : EReal) := ⟨r, rfl⟩
theorem isReal_zero_word : IsReal (Ideal.ofBits .f32 0x00000000#32) := ⟨0, by rw [Ideal.ofBits_zero_f32]; rfl⟩
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.max {x y : EReal} (hx : IsReal x) (hy : IsReal y) : IsReal (max x y) := by
  rcases le_total x y with h | h
  · rw [max_eq_right h]; exact hy
  · rw [max_eq_left h]; exact hx
theorem IsReal.sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- `|x| < +∞` says `x` is a real number. -/
theorem isReal_of_abs_lt_top {x : EReal} (h : max x (-x) < ⊤) : IsReal x := by
  induction x using EReal.rec with
  | bot => simp at h
  | coe r => exact ⟨r, rfl⟩
  | top => simp at h

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The finiteness precondition, entry by entry -/

/-- The scalar shape has exactly one index, so a reduction over all axes has one result. -/
private instance subsingleton_scalar_idx : Subsingleton (⟨0, ![]⟩ : Shape).Idx := ⟨fun a b => funext fun d => d.elim0⟩

/-- The single-precision pattern `0x7F800000` (sign 0, exponent all ones, significand 0) denotes `+∞`. -/
theorem top_word : Ideal.ofBits .f32 0x7F800000#32 = ⊤ := by simp [Ideal.ofBits, Ideal.ieee]

/-- A Boolean as a one-bit word is 1 exactly when it is true. -/
theorem ofBool_eq_one (b : Bool) : BitVec.ofBool b = 1#1 ↔ b = true := by cases b <;> decide

/-- One entry. The comparison `|x| < c` at an index compares `max (x i) (-(x i))` with the value the scalar `c`
    broadcasts, here `+∞`; where it yields 1 the entry's absolute value is below `+∞`, so the entry is real. -/
theorem real_of_entry {s : Shape} (hb : (⟨0, ![]⟩ : Shape).BroadcastsInDim s (![] : Fin 0 → Fin s.rank))
    (x : FVec Ideal s .f32) (i : s.Idx)
    (e : cmpf .olt (Host.absf x) (broadcastInDim s ![] hb (constant ⟨0, ![]⟩ .f32 0x7F800000#32)) i = 1#1) :
    IsReal (x i) := by
  apply isReal_of_abs_lt_top
  have e' : Ideal.cmp .olt (max (x i) (-(x i))) (Ideal.ofBits .f32 0x7F800000#32) = 1#1 := e
  rw [top_word] at e'
  have e'' : BitVec.ofBool (decide (max (x i) (-(x i)) < ⊤)) = 1#1 := e'
  exact of_decide_eq_true ((ofBool_eq_one _).1 e'')

/-- One input. A conjunction (a reduction by `and` from 1) over all axes that is 1 met a 1 at every index, and
    each such 1 says that entry is real. -/
theorem real_of_all {s : Shape} {axes : List (Fin s.rank)}
    (hb : (⟨0, ![]⟩ : Shape).BroadcastsInDim s (![] : Fin 0 → Fin s.rank)) (hr : s.ReducesTo axes ⟨0, ![]⟩)
    (hu : 0 < (⟨0, ![]⟩ : Shape).numel) (x : FVec Ideal s .f32) (init : IVec ⟨0, ![]⟩ 1)
    (e : Host.reduce IntOp.andi (cmpf .olt (Host.absf x) (broadcastInDim s ![] hb (constant ⟨0, ![]⟩ .f32 0x7F800000#32)))
      init hr hu ValueIdx.ix0 = 1#1) (i : s.Idx) : IsReal (x i) :=
  real_of_entry hb x i (Host.reduce_andi_all _ init hr hu _ e i)

end Cert.LibReal

end
-- ==== Proof.LibBatchNormReal.lean ====
/-
  Real numbers inside the extended reals: the facts the batch-normalisation layer identity rests on.

  * a finite sum of reals formed in the extended reals is the real sum;
  * over the reals, with `N` the number of terms (nonzero), the mean of squares minus the squared mean is the
    mean of squared deviations, and that number is nonnegative;
  * the reciprocal square root of a positive real is a real;
  * a clamp `min hi (max lo y)` between two reals is a real, whatever `y` is (the infinities included);
  * the values of the five float words of the layer's constants.
-/
import Idealize.ShloMosaic.PureOps.Ideal
import Idealize.ShloMosaic.PureOps.Ideal.Laws

noncomputable section

open scoped BigOperators
open Idealize.ShloMosaic

namespace Cert.Net

/-- A finite sum of reals, formed in the extended reals, is the real sum. -/
theorem coe_sum {α : Type*} (s : Finset α) (f : α → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The sum of squared deviations from `m`, expanded: `∑ (f − m)² = ∑ f² − 2 m ∑ f + N m²`. -/
theorem sum_sq_dev {ι : Type*} [Fintype ι] (f : ι → ℝ) (m : ℝ) :
    ∑ r, (f r - m) * (f r - m) = ∑ r, f r * f r - 2 * m * ∑ r, f r + (Fintype.card ι : ℝ) * (m * m) := by
  have h : ∀ r, (f r - m) * (f r - m) = f r * f r - 2 * m * f r + m * m := fun r => by ring
  simp only [h]
  rw [Finset.sum_add_distrib, Finset.sum_sub_distrib, ← Finset.mul_sum, Finset.sum_const, Finset.card_univ,
    nsmul_eq_mul]

/-- With `N` the (nonzero) number of terms and `m = (∑ f)/N`: the mean of squares minus the squared mean is the
    mean of squared deviations. -/
theorem var_identity {ι : Type*} [Fintype ι] (f : ι → ℝ) (hN : (Fintype.card ι : ℝ) ≠ 0) :
    (∑ r, f r * f r) * (1 / (Fintype.card ι : ℝ))
        - ((∑ r, f r) * (1 / (Fintype.card ι : ℝ))) * ((∑ r, f r) * (1 / (Fintype.card ι : ℝ)))
      = (∑ r, (f r - (∑ r, f r) * (1 / (Fintype.card ι : ℝ))) * (f r - (∑ r, f r) * (1 / (Fintype.card ι : ℝ))))
          * (1 / (Fintype.card ι : ℝ)) := by
  rw [sum_sq_dev]
  field_simp
  ring

/-- A mean of squares is nonnegative. -/
theorem mean_sq_nonneg {ι : Type*} [Fintype ι] (f : ι → ℝ) (m : ℝ) :
    0 ≤ (∑ r, (f r - m) * (f r - m)) * (1 / (Fintype.card ι : ℝ)) :=
  mul_nonneg (Finset.sum_nonneg fun _ _ => mul_self_nonneg _) (by positivity)

/-- The reciprocal square root of a positive real is the real `(√x)⁻¹`. -/
theorem rsqrt_of_pos {x : ℝ} (hx : 0 < x) : Ideal.rsqrt (x : EReal) = (((Real.sqrt x)⁻¹ : ℝ) : EReal) := by
  rw [Ideal.rsqrt_coe, if_neg (not_lt.mpr hx.le), if_neg hx.ne']

/-- A clamp between two reals is a real: it is above `min hi lo > ⊥` and below `hi < ⊤`. -/
theorem clamp_real (l h : ℝ) (y : EReal) : ∃ t : ℝ, min (h : EReal) (max (l : EReal) y) = (t : EReal) := by
  have h1 : min (h : EReal) (max (l : EReal) y) ≠ ⊥ :=
    (lt_min (EReal.bot_lt_coe h) (lt_of_lt_of_le (EReal.bot_lt_coe l) (le_max_left _ _))).ne'
  have h2 : min (h : EReal) (max (l : EReal) y) ≠ ⊤ :=
    (lt_of_le_of_lt (min_le_left _ _) (EReal.coe_lt_top h)).ne
  exact ⟨_, (EReal.coe_toReal h2 h1).symm⟩

/-- The word `0xBF800000` is `−1`. -/
theorem ofBits_neg_one : Ideal.ofBits .f32 0xBF800000#32 = ((-1 : ℝ) : EReal) := by
  simp [Ideal.ofBits, Ideal.ieee, -EReal.coe_mul]; norm_num

/-- The word `0x3F800000` is `1`. -/
theorem ofBits_one : Ideal.ofBits .f32 0x3F800000#32 = ((1 : ℝ) : EReal) := by
  simp [Ideal.ofBits, Ideal.ieee, -EReal.coe_mul]; norm_num

/-- The word `0x46000000` is `8192 = 2¹³`. -/
theorem ofBits_8192 : Ideal.ofBits .f32 0x46000000#32 = ((8192 : ℝ) : EReal) := by
  simp [Ideal.ofBits, Ideal.ieee, -EReal.coe_mul]; norm_num

/-- The word `0x3727C5AC` (exponent field 110, fraction field 2606508) is `(2²³ + 2606508) · 2⁻⁴⁰`, a positive real. -/
theorem ofBits_eps : ∃ e : ℝ, 0 < e ∧ Ideal.ofBits .f32 0x3727C5AC#32 = (e : EReal) := by
  refine ⟨10995116 * (2 : ℝ) ^ (-40 : Int), by positivity, ?_⟩
  simp [Ideal.ofBits, Ideal.ieee, -EReal.coe_mul]

end Cert.Net

end
-- ==== Proof.Algebra.lean ====
/-
  The folded network is the reference's network wherever every parameter is a real number, the stored variances are
  nonnegative and `ε` is a positive real.

  * Batch normalisation folded into a scale and a shift is the same affine map: over the reals
    `d·(g·s) + (b·(g·s) + (β − μ·(g·s))) = g·(d + b − μ)·s + β` by distributivity — which is why every factor must be a
    real number: on the extended reals distributivity fails at the infinities.  With `v ≥ 0` and `ε > 0` the
    reciprocal standard deviation `rsqrt (v + ε)` is a real, and the binarized linear map of a real row is a real
    (a sign is −1, 0 or 1).
  * The remainder `x − x` of a real row is zero, so its linear map adds nothing.
  * The clip keeps the sign: `sign (clip y) = sign y` for every extended real `y`.
  * For a nonempty row `ℓ` of reals with maximum `M`, `ℓ c − (M + log Σ) = (ℓ c − M) − log Σ`, because `M` is a real and
    `Σ = ∑ exp (ℓ c' − M)` is a positive real, so its logarithm is a real.
-/
import Mathlib.Data.Finset.Fold
import Idealize.ShloMosaic.PureOps.Ideal
import Idealize.ShloMosaic.PureOps.Ideal.Laws
import proofs.«105552_j3582002725506_2_alg».proof.Proof.Spec
import proofs.«105552_j3582002725506_2_alg».proof.Proof.LibReal
import proofs.«105552_j3582002725506_2_alg».proof.Proof.LibBatchNormReal

noncomputable section

open scoped BigOperators

namespace Cert.Mlp

open Idealize.ShloMosaic Cert.LibReal

theorem neg_one_lt_zero_ereal : (-1 : EReal) < 0 := by
  have h : ((-1 : ℝ) : EReal) < ((0 : ℝ) : EReal) := EReal.coe_lt_coe_iff.mpr (by norm_num)
  simpa using h

theorem zero_lt_one_ereal : (0 : EReal) < 1 := by
  have h : ((0 : ℝ) : EReal) < ((1 : ℝ) : EReal) := EReal.coe_lt_coe_iff.mpr (by norm_num)
  simpa using h

/-- A sign is −1, 0 or 1: a real. -/
theorem isReal_sign (x : EReal) : IsReal (Ideal.sign x) := by
  induction x using EReal.rec with
  | bot => exact ⟨-1, by rw [Ideal.sign_bot]; simp⟩
  | top => exact ⟨1, by rw [Ideal.sign_top]; simp⟩
  | coe r => exact ⟨_, Ideal.sign_coe r⟩

/-- The clip keeps the sign. -/
theorem sign_clip (y : EReal) : Ideal.sign (clip y) = Ideal.sign y := by
  unfold clip
  rcases lt_trichotomy y 0 with h | h | h
  · have h1 : max (-1 : EReal) y < 0 := max_lt neg_one_lt_zero_ereal h
    have h2 : min (1 : EReal) (max (-1) y) < 0 := lt_of_le_of_lt (min_le_right _ _) h1
    rw [Ideal.sign_of_neg h2, Ideal.sign_of_neg h]
  · subst h
    rw [max_eq_right neg_one_lt_zero_ereal.le, min_eq_right zero_lt_one_ereal.le]
  · have h1 : 0 < max (-1 : EReal) y := lt_max_of_lt_right h
    have h2 : 0 < min (1 : EReal) (max (-1) y) := lt_min zero_lt_one_ereal h1
    rw [Ideal.sign_of_pos h2, Ideal.sign_of_pos h]

/-- A clipped value lies in [−1, 1]: a real. -/
theorem isReal_clip (y : EReal) : IsReal (clip y) := by
  obtain ⟨t, ht⟩ := Cert.Net.clamp_real (-1) 1 y
  refine ⟨t, ?_⟩
  unfold clip
  simpa using ht

variable {nin nout : ℕ}

/-- A layer whose vector parameters are reals and whose stored variances are nonnegative. -/
structure Layer.IsRealParams (L : Layer nin nout) : Prop where
  b : ∀ j, IsReal (L.b j)
  g : ∀ j, IsReal (L.g j)
  be : ∀ j, IsReal (L.be j)
  mu : ∀ j, IsReal (L.mu j)
  v : ∀ j, IsReal (L.v j)
  v_nonneg : ∀ j, 0 ≤ L.v j

/-- A positive real `ε`. -/
def PosReal (eps : EReal) : Prop := ∃ e : ℝ, 0 < e ∧ eps = (e : EReal)

/-- With `v ≥ 0` real and `ε > 0` real, `rsqrt (v + ε)` is a real. -/
theorem Layer.isReal_rstd {L : Layer nin nout} (hL : L.IsRealParams) {eps : EReal} (heps : PosReal eps) (j : Fin nout) :
    IsReal (L.rstd eps j) := by
  obtain ⟨e, he, rfl⟩ := heps
  obtain ⟨r, hr⟩ := hL.v j
  have h0 := hL.v_nonneg j
  rw [hr] at h0
  have hr0 : 0 ≤ r := by exact_mod_cast h0
  unfold Layer.rstd
  rw [hr, ← EReal.coe_add, Cert.Net.rsqrt_of_pos (by linarith)]
  exact ⟨_, rfl⟩

/-- The binarized linear map of a real row is a real. -/
theorem Layer.isReal_lin (L : Layer nin nout) {h : Fin nin → EReal} (hh : ∀ k, IsReal (h k)) (j : Fin nout) :
    IsReal (L.lin h j) :=
  IsReal.sum _ _ fun k _ => (hh k).mul (isReal_sign _)

/-- Folding the normalisation into a scale and a shift, over the reals. -/
theorem bn_fold {d b g be mu s : EReal} (hd : IsReal d) (hb : IsReal b) (hg : IsReal g) (hbe : IsReal be)
    (hmu : IsReal mu) (hs : IsReal s) :
    d * (g * s) + (b * (g * s) + (be - mu * (g * s))) = g * (d + b - mu) * s + be := by
  obtain ⟨d, rfl⟩ := hd
  obtain ⟨b, rfl⟩ := hb
  obtain ⟨g, rfl⟩ := hg
  obtain ⟨be, rfl⟩ := hbe
  obtain ⟨mu, rfl⟩ := hmu
  obtain ⟨s, rfl⟩ := hs
  have h : d * (g * s) + (b * (g * s) + (be - mu * (g * s))) = g * (d + b - mu) * s + be := by ring
  exact_mod_cast congrArg (fun t : ℝ => (t : EReal)) h

/-- The folded form is the reference's form on a real row. -/
theorem Layer.kerPre_eq_refPre {L : Layer nin nout} (hL : L.IsRealParams) {eps : EReal} (heps : PosReal eps)
    {h : Fin nin → EReal} (hh : ∀ k, IsReal (h k)) (j : Fin nout) : L.kerPre eps h j = L.refPre eps h j := by
  unfold Layer.kerPre Layer.refPre Layer.shift Layer.scale
  exact bn_fold (L.isReal_lin hh j) (hL.b j) (hL.g j) (hL.be j) (hL.mu j) (Layer.isReal_rstd hL heps j)

/-- The remainder `x − x` of a real row has linear map zero. -/
theorem Layer.lin_remainder (L : Layer nin nout) {x : Fin nin → EReal} (hx : ∀ k, IsReal (x k)) (j : Fin nout) :
    L.lin (fun k => x k - x k) j = 0 := by
  unfold Layer.lin
  refine Finset.sum_eq_zero fun k _ => ?_
  obtain ⟨r, hr⟩ := hx k
  show (x k - x k) * Ideal.sign (L.w j k) = 0
  rw [hr, ← EReal.coe_sub, sub_self, EReal.coe_zero, zero_mul]

/-- The folded form on the split input is the reference's form on a real row. -/
theorem Layer.kerPre1_eq_refPre {L : Layer nin nout} (hL : L.IsRealParams) {eps : EReal} (heps : PosReal eps)
    {x : Fin nin → EReal} (hx : ∀ k, IsReal (x k)) (j : Fin nout) : L.kerPre1 eps x j = L.refPre eps x j := by
  have h := L.kerPre_eq_refPre hL heps hx j
  unfold Layer.kerPre at h
  unfold Layer.kerPre1
  rw [L.lin_remainder hx j, add_zero]
  exact h

/-! ## The log-softmax -/

/-- The maximum of a nonempty row of reals is a real. -/
theorem isReal_rowMax {n : ℕ} (hn : 0 < n) (l : Fin n → EReal) (hl : ∀ c, IsReal (l c)) : IsReal (rowMax l) := by
  unfold rowMax
  have h1 : (Finset.univ : Finset (Fin n)).fold max ⊥ l < ⊤ :=
    (Finset.fold_max_lt _).mpr ⟨bot_lt_top, fun x _ => by obtain ⟨r, hr⟩ := hl x; rw [hr]; exact EReal.coe_lt_top r⟩
  have h2 : ⊥ < (Finset.univ : Finset (Fin n)).fold max ⊥ l :=
    (Finset.lt_fold_max _).mpr (Or.inr ⟨⟨0, hn⟩, Finset.mem_univ _, by
      obtain ⟨r, hr⟩ := hl ⟨0, hn⟩; rw [hr]; exact EReal.bot_lt_coe r⟩)
  exact ⟨_, (EReal.coe_toReal h1.ne h2.ne').symm⟩

/-- The two ways of writing the log-softmax agree on a nonempty row of reals. -/
theorem lsmKer_eq_lsmRef {n : ℕ} (hn : 0 < n) (l : Fin n → EReal) (hl : ∀ c, IsReal (l c)) (c : Fin n) :
    lsmKer l c = lsmRef l c := by
  obtain ⟨M, hM⟩ := isReal_rowMax hn l hl
  choose a ha using hl
  unfold lsmKer lsmRef
  rw [hM]
  have hsum : (∑ c', Ideal.exp (l c' - (M : EReal))) = ((∑ c', Real.exp (a c' - M) : ℝ) : EReal) := by
    rw [Cert.LibReal.coe_sum]
    refine Finset.sum_congr rfl fun c' _ => ?_
    rw [ha c', ← EReal.coe_sub, Ideal.exp_coe]
  have hpos : 0 < ∑ c', Real.exp (a c' - M) :=
    Finset.sum_pos (fun c' _ => Real.exp_pos _) ⟨⟨0, hn⟩, Finset.mem_univ _⟩
  rw [hsum, Ideal.log_coe, if_neg (not_le.mpr hpos), ha c]
  have h : a c - (M + Real.log (∑ c', Real.exp (a c' - M))) = (a c - M) - Real.log (∑ c', Real.exp (a c' - M)) := by ring
  exact_mod_cast congrArg (fun t : ℝ => (t : EReal)) h

/-! ## The network -/

variable {n0 n1 n2 n3 n4 : ℕ}

/-- A network all of whose parameters are reals, with nonnegative stored variances and a positive real `ε`. -/
structure Net.IsRealParams (N : Net n0 n1 n2 n3 n4) : Prop where
  l1 : N.l1.IsRealParams
  l2 : N.l2.IsRealParams
  l3 : N.l3.IsRealParams
  w4 : ∀ c k, IsReal (N.w4 c k)
  b4 : ∀ c, IsReal (N.b4 c)
  eps : PosReal N.eps

/-- The clipped third-layer activations agree. -/
theorem Net.kerHidden_eq_refHidden {N : Net n0 n1 n2 n3 n4} (hN : N.IsRealParams) {x : Fin n0 → EReal}
    (hx : ∀ k, IsReal (x k)) : N.kerHidden x = N.refHidden x := by
  funext k
  unfold Net.kerHidden Net.refHidden
  have e1 : (fun k1 => Ideal.sign (N.l1.kerPre1 N.eps x k1)) = fun k1 => Ideal.sign (clip (N.l1.refPre N.eps x k1)) :=
    funext fun k1 => by rw [sign_clip, Layer.kerPre1_eq_refPre hN.l1 hN.eps hx]
  rw [e1]
  have e2 : (fun k2 => Ideal.sign (N.l2.kerPre N.eps (fun k1 => Ideal.sign (clip (N.l1.refPre N.eps x k1))) k2))
      = fun k2 => Ideal.sign (clip (N.l2.refPre N.eps (fun k1 => Ideal.sign (clip (N.l1.refPre N.eps x k1))) k2)) :=
    funext fun k2 => by rw [sign_clip, Layer.kerPre_eq_refPre hN.l2 hN.eps (fun _ => isReal_sign _)]
  rw [e2, Layer.kerPre_eq_refPre hN.l3 hN.eps (fun _ => isReal_sign _)]

/-- One row of the kernel's result is the same row of the reference's result. -/
theorem Net.kerRow_eq_refRow {N : Net n0 n1 n2 n3 n4} (hn : 0 < n4) (hN : N.IsRealParams) {x : Fin n0 → EReal}
    (hx : ∀ k, IsReal (x k)) : N.kerRow x = N.refRow x := by
  funext c
  unfold Net.kerRow Net.refRow
  rw [Net.kerHidden_eq_refHidden hN hx]
  refine lsmKer_eq_lsmRef hn _ (fun c' => ?_) c
  unfold logits
  exact (IsReal.sum _ _ fun k _ => (by unfold Net.refHidden; exact isReal_clip _ : IsReal (N.refHidden x k)).mul (hN.w4 c' k)).add (hN.b4 c')

end Cert.Mlp

end
-- ==== Proof.Pre.lean ====
/-
  The precondition read entry by entry.  It is a conjunction, over the twenty-one inputs, of "every entry has absolute
  value below +∞" and, for the three stored variances, of "every entry is at least 0"; where the conjunction is 1, every
  entry of every input is a real number and every stored variance is nonnegative.
-/
import Idealize.ShloMosaic.PureOps.Ideal
import Idealize.ShloMosaic.PureOps.Ideal.Laws
import Idealize.ShloMosaic.Lib.ValueIdx
import Idealize.ShloMosaic.Lib.ReduceAll
import Idealize.ShloMosaic.Lib.Affine
import proofs.«105552_j3582002725506_2_alg».proof.Pre_finite_inputs
import proofs.«105552_j3582002725506_2_alg».proof.Proof.LibReal

noncomputable section

namespace Cert.Mlp.Pre

open Idealize.ShloMosaic Cert.LibReal Cert.Pre_finite_inputs

/-- The scalar shape has one index. -/
instance subsingleton_scalar : Subsingleton (⟨0, ![]⟩ : Shape).Idx := ⟨fun a b => funext fun d => d.elim0⟩

/-- One nonnegativity conjunct: where "every entry ≥ 0" — the comparison with the broadcast zero word, reduced by `and`
    over all axes — is 1, every entry is at least 0. -/
theorem nonneg_of_all {s : Shape} {axes : List (Fin s.rank)}
    (hb : (⟨0, ![]⟩ : Shape).BroadcastsInDim s (![] : Fin 0 → Fin s.rank)) (hr : s.ReducesTo axes ⟨0, ![]⟩)
    (hu : 0 < (⟨0, ![]⟩ : Shape).numel) (x : FVec Ideal s .f32) (init : IVec ⟨0, ![]⟩ 1)
    (e : Host.reduce IntOp.andi (cmpf .oge x (broadcastInDim s ![] hb (constant ⟨0, ![]⟩ .f32 0x00000000#32)))
      init hr hu ValueIdx.ix0 = 1#1) (i : s.Idx) : 0 ≤ x i := by
  have e1 := Host.reduce_andi_all _ init hr hu _ e i
  have e2 : Ideal.cmp .oge (x i) (Ideal.ofBits .f32 0x00000000#32) = 1#1 := e1
  rw [Ideal.ofBits_zero_f32] at e2
  have e3 : BitVec.ofBool (decide ((0 : EReal) ≤ x i)) = 1#1 := e2
  exact of_decide_eq_true ((ofBool_eq_one _).1 e3)

variable [Cert.Pre_finite_inputs.Facts]

/-- Every input's entries are reals and the stored variances are nonnegative, where the precondition holds. -/
theorem decode (a0 : FVec Ideal S16384x784 .f32) (a1 : FVec Ideal S3072x784 .f32) (a2 : FVec Ideal S3072 .f32) (a3 : FVec Ideal S1536x3072 .f32) (a4 : FVec Ideal S1536 .f32) (a5 : FVec Ideal S768x1536 .f32) (a6 : FVec Ideal S768 .f32) (a7 : FVec Ideal S10x768 .f32) (a8 : FVec Ideal S10 .f32) (a9 : FVec Ideal S3072 .f32) (a10 : FVec Ideal S3072 .f32) (a11 : FVec Ideal S3072 .f32) (a12 : FVec Ideal S3072 .f32) (a13 : FVec Ideal S1536 .f32) (a14 : FVec Ideal S1536 .f32) (a15 : FVec Ideal S1536 .f32) (a16 : FVec Ideal S1536 .f32) (a17 : FVec Ideal S768 .f32) (a18 : FVec Ideal S768 .f32) (a19 : FVec Ideal S768 .f32) (a20 : FVec Ideal S768 .f32)
    (h : fn (F := Ideal) a0 a1 a2 a3 a4 a5 a6 a7 a8 a9 a10 a11 a12 a13 a14 a15 a16 a17 a18 a19 a20 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) ∧ (∀ i, IsReal (a15 i)) ∧ (∀ i, IsReal (a16 i)) ∧ (∀ i, IsReal (a17 i)) ∧ (∀ i, IsReal (a18 i)) ∧ (∀ i, IsReal (a19 i)) ∧ (∀ i, IsReal (a20 i)) ∧ (∀ i, 0 ≤ a12 i) ∧ (∀ i, 0 ≤ a16 i) ∧ (∀ i, 0 ≤ a20 i) := by
  have h0 := congrFun h ValueIdx.ix0
  dsimp only [fn, fn_part1, fn_part2, fn_part3, fn_part4, fn_part5, fn_part6] at h0
  obtain ⟨h0, n20⟩ := IntOp.andi_eq_one.1 h0
  obtain ⟨h0, n16⟩ := IntOp.andi_eq_one.1 h0
  obtain ⟨h0, n12⟩ := IntOp.andi_eq_one.1 h0
  obtain ⟨h0, r20⟩ := IntOp.andi_eq_one.1 h0
  obtain ⟨h0, r19⟩ := IntOp.andi_eq_one.1 h0
  obtain ⟨h0, r18⟩ := IntOp.andi_eq_one.1 h0
  obtain ⟨h0, r17⟩ := IntOp.andi_eq_one.1 h0
  obtain ⟨h0, r16⟩ := IntOp.andi_eq_one.1 h0
  obtain ⟨h0, r15⟩ := IntOp.andi_eq_one.1 h0
  obtain ⟨h0, r14⟩ := IntOp.andi_eq_one.1 h0
  obtain ⟨h0, r13⟩ := IntOp.andi_eq_one.1 h0
  obtain ⟨h0, r12⟩ := IntOp.andi_eq_one.1 h0
  obtain ⟨h0, r11⟩ := IntOp.andi_eq_one.1 h0
  obtain ⟨h0, r10⟩ := IntOp.andi_eq_one.1 h0
  obtain ⟨h0, r9⟩ := IntOp.andi_eq_one.1 h0
  obtain ⟨h0, r8⟩ := IntOp.andi_eq_one.1 h0
  obtain ⟨h0, r7⟩ := IntOp.andi_eq_one.1 h0
  obtain ⟨h0, r6⟩ := IntOp.andi_eq_one.1 h0
  obtain ⟨h0, r5⟩ := IntOp.andi_eq_one.1 h0
  obtain ⟨h0, r4⟩ := IntOp.andi_eq_one.1 h0
  obtain ⟨h0, r3⟩ := IntOp.andi_eq_one.1 h0
  obtain ⟨h0, r2⟩ := IntOp.andi_eq_one.1 h0
  obtain ⟨h0, r1⟩ := IntOp.andi_eq_one.1 h0
  exact ⟨real_of_all _ _ _ a0 _ h0,
    real_of_all _ _ _ a1 _ r1,
    real_of_all _ _ _ a2 _ r2,
    real_of_all _ _ _ a3 _ r3,
    real_of_all _ _ _ a4 _ r4,
    real_of_all _ _ _ a5 _ r5,
    real_of_all _ _ _ a6 _ r6,
    real_of_all _ _ _ a7 _ r7,
    real_of_all _ _ _ a8 _ r8,
    real_of_all _ _ _ a9 _ r9,
    real_of_all _ _ _ a10 _ r10,
    real_of_all _ _ _ a11 _ r11,
    real_of_all _ _ _ a12 _ r12,
    real_of_all _ _ _ a13 _ r13,
    real_of_all _ _ _ a14 _ r14,
    real_of_all _ _ _ a15 _ r15,
    real_of_all _ _ _ a16 _ r16,
    real_of_all _ _ _ a17 _ r17,
    real_of_all _ _ _ a18 _ r18,
    real_of_all _ _ _ a19 _ r19,
    real_of_all _ _ _ a20 _ r20,
    nonneg_of_all _ _ _ a12 _ n12,
    nonneg_of_all _ _ _ a16 _ n16,
    nonneg_of_all _ _ _ a20 _ n20⟩

end Cert.Mlp.Pre

end
-- ==== Proof.RefValue.lean ====
/-
  The reference's result, entry by entry: entry `(r, c)` is row `r` of the input put through the network as the
  reference writes it.
-/
import proofs.«105552_j3582002725506_2_alg».proof.Proof.RefRead
import proofs.«105552_j3582002725506_2_alg».proof.Proof.NetOf
import Idealize.ShloMosaic.Lib.ValueIdx
import Idealize.ShloMosaic.Lib.Pipeline.Value
import Idealize.ShloMosaic.PureOps.Ideal.Laws

noncomputable section

open scoped BigOperators

namespace Cert.Mlp.RefValue

open Idealize.ShloMosaic Idealize.ShloMosaic.ValueIdx Cert.ReferenceIdeal

/-! ## Words -/

/-- The single-precision word of 1. -/
theorem one_word : Ideal.ofBits .f32 0x3F800000#32 = (1 : EReal) := IdealRules.sign_bit.ideal_onePat .f32
/-- The single-precision word of −1. -/
theorem negOne_word : Ideal.ofBits .f32 0xBF800000#32 = (-1 : EReal) := IdealRules.sign_bit.ideal_negOnePat .f32
/-- The single-precision word of −∞. -/
theorem negInf_word : Ideal.ofBits .f32 0xFF800000#32 = (⊥ : EReal) := by simp [Ideal.ofBits, Ideal.ieee]

/-- The minimum with the word of 1 of the maximum with the word of −1 is the hard clip. -/
theorem clip_words (y : EReal) :
    min (Ideal.ofBits .f32 0x3F800000#32) (max (Ideal.ofBits .f32 0xBF800000#32) y) = clip y := by
  rw [one_word, negOne_word]; rfl

/-- The normalisation's `ε`: the single-precision word of `1e-5`. -/
abbrev epsW : EReal := Ideal.ofBits .f32 0x3727C5AC#32

/-! ## Layer 1 -/

/-- A vector of 3072 broadcast down the rows, read at `(r, j)`. -/
theorem bvec1 (v : FVec Ideal S3072 .f32) (r : Fin 16384) (j : Fin 3072) :
    Read.val_main_v4 (F := Ideal) v (ix2 r j) = v (ix1 j) := by
  rw [Read.val_main_v4_apply, Read.val_main_v3_apply]
  exact congrArg v (funext fun a => by match a with | ⟨0, _⟩ => rfl)

/-- The reciprocal standard deviation of layer 1 broadcast down the rows, read at `(r, j)`. -/
theorem rstd1 (x12 : FVec Ideal S3072 .f32) (r : Fin 16384) (j : Fin 3072) :
    Read.val_main_v16 (F := Ideal) x12 (ix2 r j) = Ideal.rsqrt (x12 (ix1 j) + epsW) := by
  refine (bvec1 (Read.val_main_v14 (F := Ideal) x12) r j).trans ?_
  rw [Read.val_main_v14_apply, Read.val_main_v13_apply, Read.val_main_v12_apply]
  rfl

/-- The product of layer 1 at `(r, j)`: row `r` of the input times the signs of the weights of output `j`. -/
theorem dot1 (x0 : FVec Ideal S16384x784 .f32) (x1 : FVec Ideal S3072x784 .f32) (r : Fin 16384) (j : Fin 3072) :
    Read.val_main_v2 (F := Ideal) x0 x1 (ix2 r j)
      = ∑ k : Fin 784, rowOf x0 r k * Ideal.sign (x1 (ix2 j k)) := by
  rw [Read.val_main_v2_apply]
  refine Finset.sum_congr rfl fun k _ => ?_
  have e1 : Read.lidx_main_v2 (ix2 r j) k = ix2 r k :=
    funext fun a => by match a with | ⟨0, _⟩ => rfl | ⟨1, _⟩ => rfl
  have e2 : Read.idx_main_v1 (Read.ridx_main_v2 (ix2 r j) k) = ix2 j k :=
    funext fun a => by match a with | ⟨0, _⟩ => rfl | ⟨1, _⟩ => rfl
  rw [Read.val_main_v1_apply, Read.val_main_v0_apply, e1, e2]
  rfl

/-- Layer 1 before the clip, at `(r, j)`. -/
theorem pre1 (x0 : FVec Ideal S16384x784 .f32) (x1 : FVec Ideal S3072x784 .f32) (x2 x9 x10 x11 x12 : FVec Ideal S3072 .f32) (r : Fin 16384) (j : Fin 3072) :
    Read.val_main_v20 (F := Ideal) x0 x1 x2 x9 x10 x11 x12 (ix2 r j)
      = (layerOf x1 x2 x9 x10 x11 x12).refPre epsW (rowOf x0 r) j := by
  rw [Read.val_main_v20_apply, Read.val_main_v17_apply, Read.val_main_v11_apply, Read.val_main_v8_apply,
    Read.val_main_v5_apply, dot1, rstd1]
  rw [show Read.val_main_v19 (F := Ideal) x10 (ix2 r j) = x10 (ix1 j) from bvec1 x10 r j,
    show Read.val_main_v10 (F := Ideal) x9 (ix2 r j) = x9 (ix1 j) from bvec1 x9 r j,
    show Read.val_main_v7 (F := Ideal) x11 (ix2 r j) = x11 (ix1 j) from bvec1 x11 r j,
    bvec1 x2 r j]
  rfl

/-- Row `r` after layer 1: the clip, then the sign. -/
def act1 (x0 : FVec Ideal S16384x784 .f32) (x1 : FVec Ideal S3072x784 .f32) (x2 x9 x10 x11 x12 : FVec Ideal S3072 .f32) (r : Fin 16384) : Fin 3072 → EReal :=
  fun j => Ideal.sign (clip ((layerOf x1 x2 x9 x10 x11 x12).refPre epsW (rowOf x0 r) j))

/-- Layer 1 after the clip and the sign, at `(r, j)`. -/
theorem hid1 (x0 : FVec Ideal S16384x784 .f32) (x1 : FVec Ideal S3072x784 .f32) (x2 x9 x10 x11 x12 : FVec Ideal S3072 .f32) (r : Fin 16384) (j : Fin 3072) :
    Read.val_main_v22 (F := Ideal) x0 x1 x2 x9 x10 x11 x12 (ix2 r j) = act1 x0 x1 x2 x9 x10 x11 x12 r j := by
  unfold act1
  rw [Read.val_main_v22_apply, Read.val_main_v21_apply, Read.val_main_call0_v2_apply, Read.val_main_call0_v4_apply,
    Read.val_main_call0_v1_apply, pre1]
  exact congrArg Ideal.sign (clip_words _)

/-! ## Layer 2 -/

/-- A vector of 1536 broadcast down the rows, read at `(r, j)`. -/
theorem bvec2 (v : FVec Ideal S1536 .f32) (r : Fin 16384) (j : Fin 1536) :
    Read.val_main_v27 (F := Ideal) v (ix2 r j) = v (ix1 j) := by
  rw [Read.val_main_v27_apply, Read.val_main_v26_apply]
  exact congrArg v (funext fun a => by match a with | ⟨0, _⟩ => rfl)

/-- The reciprocal standard deviation of layer 2 broadcast down the rows, read at `(r, j)`. -/
theorem rstd2 (x16 : FVec Ideal S1536 .f32) (r : Fin 16384) (j : Fin 1536) :
    Read.val_main_v39 (F := Ideal) x16 (ix2 r j) = Ideal.rsqrt (x16 (ix1 j) + epsW) := by
  refine (bvec2 (Read.val_main_v37 (F := Ideal) x16) r j).trans ?_
  rw [Read.val_main_v37_apply, Read.val_main_v36_apply, Read.val_main_v35_apply]
  rfl

/-- The product of layer 2 at `(r, j)`: the activations of row `r` times the signs of the weights of output `j`. -/
theorem dot2 (x0 : FVec Ideal S16384x784 .f32) (x1 : FVec Ideal S3072x784 .f32) (x2 x9 x10 x11 x12 : FVec Ideal S3072 .f32) (x3 : FVec Ideal S1536x3072 .f32) (r : Fin 16384) (j : Fin 1536) :
    Read.val_main_v25 (F := Ideal) x0 x1 x2 x3 x9 x10 x11 x12 (ix2 r j)
      = ∑ k : Fin 3072, act1 x0 x1 x2 x9 x10 x11 x12 r k * Ideal.sign (x3 (ix2 j k)) := by
  rw [Read.val_main_v25_apply]
  refine Finset.sum_congr rfl fun k _ => ?_
  have e1 : Read.lidx_main_v25 (ix2 r j) k = ix2 r k :=
    funext fun a => by match a with | ⟨0, _⟩ => rfl | ⟨1, _⟩ => rfl
  have e2 : Read.idx_main_v24 (Read.ridx_main_v25 (ix2 r j) k) = ix2 j k :=
    funext fun a => by match a with | ⟨0, _⟩ => rfl | ⟨1, _⟩ => rfl
  rw [Read.val_main_v24_apply, Read.val_main_v23_apply, e1, e2, hid1]
  rfl

/-- Layer 2 before the clip, at `(r, j)`. -/
theorem pre2 (x0 : FVec Ideal S16384x784 .f32) (x1 : FVec Ideal S3072x784 .f32) (x2 x9 x10 x11 x12 : FVec Ideal S3072 .f32)
    (x3 : FVec Ideal S1536x3072 .f32) (x4 x13 x14 x15 x16 : FVec Ideal S1536 .f32) (r : Fin 16384) (j : Fin 1536) :
    Read.val_main_v43 (F := Ideal) x0 x1 x2 x3 x4 x9 x10 x11 x12 x13 x14 x15 x16 (ix2 r j)
      = (layerOf x3 x4 x13 x14 x15 x16).refPre epsW (act1 x0 x1 x2 x9 x10 x11 x12 r) j := by
  rw [Read.val_main_v43_apply, Read.val_main_v40_apply, Read.val_main_v34_apply, Read.val_main_v31_apply,
    Read.val_main_v28_apply, dot2, rstd2]
  rw [show Read.val_main_v42 (F := Ideal) x14 (ix2 r j) = x14 (ix1 j) from bvec2 x14 r j,
    show Read.val_main_v33 (F := Ideal) x13 (ix2 r j) = x13 (ix1 j) from bvec2 x13 r j,
    show Read.val_main_v30 (F := Ideal) x15 (ix2 r j) = x15 (ix1 j) from bvec2 x15 r j,
    bvec2 x4 r j]
  rfl

/-- Row `r` after layer 2: the clip, then the sign. -/
def act2 (x0 : FVec Ideal S16384x784 .f32) (x1 : FVec Ideal S3072x784 .f32) (x2 x9 x10 x11 x12 : FVec Ideal S3072 .f32)
    (x3 : FVec Ideal S1536x3072 .f32) (x4 x13 x14 x15 x16 : FVec Ideal S1536 .f32) (r : Fin 16384) : Fin 1536 → EReal :=
  fun j => Ideal.sign (clip ((layerOf x3 x4 x13 x14 x15 x16).refPre epsW (act1 x0 x1 x2 x9 x10 x11 x12 r) j))

/-- Layer 2 after the clip and the sign, at `(r, j)`. -/
theorem hid2 (x0 : FVec Ideal S16384x784 .f32) (x1 : FVec Ideal S3072x784 .f32) (x2 x9 x10 x11 x12 : FVec Ideal S3072 .f32)
    (x3 : FVec Ideal S1536x3072 .f32) (x4 x13 x14 x15 x16 : FVec Ideal S1536 .f32) (r : Fin 16384) (j : Fin 1536) :
    Read.val_main_v45 (F := Ideal) x0 x1 x2 x3 x4 x9 x10 x11 x12 x13 x14 x15 x16 (ix2 r j) = act2 x0 x1 x2 x9 x10 x11 x12 x3 x4 x13 x14 x15 x16 r j := by
  unfold act2
  rw [Read.val_main_v45_apply, Read.val_main_v44_apply, Read.val_main_call1_v2_apply, Read.val_main_call1_v4_apply,
    Read.val_main_call1_v1_apply, pre2]
  exact congrArg Ideal.sign (clip_words _)

/-! ## Layer 3 -/

/-- A vector of 768 broadcast down the rows, read at `(r, j)`. -/
theorem bvec3 (v : FVec Ideal S768 .f32) (r : Fin 16384) (j : Fin 768) :
    Read.val_main_v50 (F := Ideal) v (ix2 r j) = v (ix1 j) := by
  rw [Read.val_main_v50_apply, Read.val_main_v49_apply]
  exact congrArg v (funext fun a => by match a with | ⟨0, _⟩ => rfl)

/-- The reciprocal standard deviation of layer 3 broadcast down the rows, read at `(r, j)`. -/
theorem rstd3 (x20 : FVec Ideal S768 .f32) (r : Fin 16384) (j : Fin 768) :
    Read.val_main_v62 (F := Ideal) x20 (ix2 r j) = Ideal.rsqrt (x20 (ix1 j) + epsW) := by
  refine (bvec3 (Read.val_main_v60 (F := Ideal) x20) r j).trans ?_
  rw [Read.val_main_v60_apply, Read.val_main_v59_apply, Read.val_main_v58_apply]
  rfl

/-- The product of layer 3 at `(r, j)`: the activations of row `r` times the signs of the weights of output `j`. -/
theorem dot3 (x0 : FVec Ideal S16384x784 .f32) (x1 : FVec Ideal S3072x784 .f32) (x2 x9 x10 x11 x12 : FVec Ideal S3072 .f32)
    (x3 : FVec Ideal S1536x3072 .f32) (x4 x13 x14 x15 x16 : FVec Ideal S1536 .f32) (x5 : FVec Ideal S768x1536 .f32) (r : Fin 16384) (j : Fin 768) :
    Read.val_main_v48 (F := Ideal) x0 x1 x2 x3 x4 x5 x9 x10 x11 x12 x13 x14 x15 x16 (ix2 r j)
      = ∑ k : Fin 1536, act2 x0 x1 x2 x9 x10 x11 x12 x3 x4 x13 x14 x15 x16 r k * Ideal.sign (x5 (ix2 j k)) := by
  rw [Read.val_main_v48_apply]
  refine Finset.sum_congr rfl fun k _ => ?_
  have e1 : Read.lidx_main_v48 (ix2 r j) k = ix2 r k :=
    funext fun a => by match a with | ⟨0, _⟩ => rfl | ⟨1, _⟩ => rfl
  have e2 : Read.idx_main_v47 (Read.ridx_main_v48 (ix2 r j) k) = ix2 j k :=
    funext fun a => by match a with | ⟨0, _⟩ => rfl | ⟨1, _⟩ => rfl
  rw [Read.val_main_v47_apply, Read.val_main_v46_apply, e1, e2, hid2]
  rfl

/-- Layer 3 before the clip, at `(r, j)`. -/
theorem pre3 (x0 : FVec Ideal S16384x784 .f32) (x1 : FVec Ideal S3072x784 .f32) (x2 x9 x10 x11 x12 : FVec Ideal S3072 .f32)
    (x3 : FVec Ideal S1536x3072 .f32) (x4 x13 x14 x15 x16 : FVec Ideal S1536 .f32)
    (x5 : FVec Ideal S768x1536 .f32) (x6 x17 x18 x19 x20 : FVec Ideal S768 .f32) (r : Fin 16384) (j : Fin 768) :
    Read.val_main_v66 (F := Ideal) x0 x1 x2 x3 x4 x5 x6 x9 x10 x11 x12 x13 x14 x15 x16 x17 x18 x19 x20 (ix2 r j)
      = (layerOf x5 x6 x17 x18 x19 x20).refPre epsW (act2 x0 x1 x2 x9 x10 x11 x12 x3 x4 x13 x14 x15 x16 r) j := by
  rw [Read.val_main_v66_apply, Read.val_main_v63_apply, Read.val_main_v57_apply, Read.val_main_v54_apply,
    Read.val_main_v51_apply, dot3, rstd3]
  rw [show Read.val_main_v65 (F := Ideal) x18 (ix2 r j) = x18 (ix1 j) from bvec3 x18 r j,
    show Read.val_main_v56 (F := Ideal) x17 (ix2 r j) = x17 (ix1 j) from bvec3 x17 r j,
    show Read.val_main_v53 (F := Ideal) x19 (ix2 r j) = x19 (ix1 j) from bvec3 x19 r j,
    bvec3 x6 r j]
  rfl

/-- Row `r` after layer 3: the clip. -/
def act3 (x0 : FVec Ideal S16384x784 .f32) (x1 : FVec Ideal S3072x784 .f32) (x2 x9 x10 x11 x12 : FVec Ideal S3072 .f32)
    (x3 : FVec Ideal S1536x3072 .f32) (x4 x13 x14 x15 x16 : FVec Ideal S1536 .f32)
    (x5 : FVec Ideal S768x1536 .f32) (x6 x17 x18 x19 x20 : FVec Ideal S768 .f32) (r : Fin 16384) : Fin 768 → EReal :=
  fun j => clip ((layerOf x5 x6 x17 x18 x19 x20).refPre epsW (act2 x0 x1 x2 x9 x10 x11 x12 x3 x4 x13 x14 x15 x16 r) j)

/-- Layer 3 after the clip, at `(r, j)`. -/
theorem hid3 (x0 : FVec Ideal S16384x784 .f32) (x1 : FVec Ideal S3072x784 .f32) (x2 x9 x10 x11 x12 : FVec Ideal S3072 .f32)
    (x3 : FVec Ideal S1536x3072 .f32) (x4 x13 x14 x15 x16 : FVec Ideal S1536 .f32)
    (x5 : FVec Ideal S768x1536 .f32) (x6 x17 x18 x19 x20 : FVec Ideal S768 .f32) (r : Fin 16384) (j : Fin 768) :
    Read.val_main_v67 (F := Ideal) x0 x1 x2 x3 x4 x5 x6 x9 x10 x11 x12 x13 x14 x15 x16 x17 x18 x19 x20 (ix2 r j) = act3 x0 x1 x2 x9 x10 x11 x12 x3 x4 x13 x14 x15 x16 x5 x6 x17 x18 x19 x20 r j := by
  unfold act3
  rw [Read.val_main_v67_apply, Read.val_main_call2_v2_apply, Read.val_main_call2_v4_apply,
    Read.val_main_call2_v1_apply, pre3]
  exact clip_words _

/-! ## The last linear layer -/

/-- The last layer's product at `(r, c)`: the third layer's activations of row `r` times the weights of class `c`. -/
theorem dot4 (x0 : FVec Ideal S16384x784 .f32) (x1 : FVec Ideal S3072x784 .f32) (x2 x9 x10 x11 x12 : FVec Ideal S3072 .f32)
    (x3 : FVec Ideal S1536x3072 .f32) (x4 x13 x14 x15 x16 : FVec Ideal S1536 .f32)
    (x5 : FVec Ideal S768x1536 .f32) (x6 x17 x18 x19 x20 : FVec Ideal S768 .f32)
    (x7 : FVec Ideal S10x768 .f32) (r : Fin 16384) (c : Fin 10) :
    Read.val_main_v69 (F := Ideal) x0 x1 x2 x3 x4 x5 x6 x7 x9 x10 x11 x12 x13 x14 x15 x16 x17 x18 x19 x20 (ix2 r c)
      = ∑ k : Fin 768, act3 x0 x1 x2 x9 x10 x11 x12 x3 x4 x13 x14 x15 x16 x5 x6 x17 x18 x19 x20 r k * x7 (ix2 c k) := by
  rw [Read.val_main_v69_apply]
  refine Finset.sum_congr rfl fun k _ => ?_
  have e1 : Read.lidx_main_v69 (ix2 r c) k = ix2 r k :=
    funext fun a => by match a with | ⟨0, _⟩ => rfl | ⟨1, _⟩ => rfl
  have e2 : Read.idx_main_v68 (Read.ridx_main_v69 (ix2 r c) k) = ix2 c k :=
    funext fun a => by match a with | ⟨0, _⟩ => rfl | ⟨1, _⟩ => rfl
  rw [Read.val_main_v68_apply, e1, e2, hid3]

/-- The logits at `(r, c)`. -/
theorem logit (x0 : FVec Ideal S16384x784 .f32) (x1 : FVec Ideal S3072x784 .f32) (x2 : FVec Ideal S3072 .f32)
    (x3 : FVec Ideal S1536x3072 .f32) (x4 : FVec Ideal S1536 .f32) (x5 : FVec Ideal S768x1536 .f32) (x6 : FVec Ideal S768 .f32)
    (x7 : FVec Ideal S10x768 .f32) (x8 : FVec Ideal S10 .f32) (x9 x10 x11 x12 : FVec Ideal S3072 .f32)
    (x13 x14 x15 x16 : FVec Ideal S1536 .f32) (x17 x18 x19 x20 : FVec Ideal S768 .f32) (r : Fin 16384) (c : Fin 10) :
    Read.val_main_v72 (F := Ideal) x0 x1 x2 x3 x4 x5 x6 x7 x8 x9 x10 x11 x12 x13 x14 x15 x16 x17 x18 x19 x20 (ix2 r c)
      = logits (fun c k => x7 (ix2 c k)) (fun c => x8 (ix1 c)) (act3 x0 x1 x2 x9 x10 x11 x12 x3 x4 x13 x14 x15 x16 x5 x6 x17 x18 x19 x20 r) c := by
  rw [Read.val_main_v72_apply, dot4, Read.val_main_v71_apply, Read.val_main_v70_apply]
  have e : Read.idx_main_v70 (Read.idx_main_v71 (ix2 r c)) = ix1 c :=
    funext fun a => by match a with | ⟨0, _⟩ => rfl
  rw [e]
  rfl

/-! ## The log-softmax -/

/-- The reduction with a maximum body over the ten classes, from the word of −∞, at row `r`, is the row's maximum. -/
theorem rowmax0 (y : FVec Ideal S16384x10 .f32) (h' : S16384x10.ReducesTo [1] S16384) (hu : 0 < S_.numel) (r : Fin 16384) :
    Host.reduce FloatOps.maximumf y (constant S_ .f32 0xFF800000#32) h' hu (ix1 r)
      = rowMax (fun c' : Fin 10 => y (ix2 r c')) := by
  have h : S16384x10.Reduces [1] S16384 := by decide
  rw [Host.reduce_eq_fold_single FloatOps.maximumf y _ h' h hu]
  have hf : (y ∘ h.lift (ix1 r)) = fun c' : Fin 10 => y (ix2 r c') :=
    funext fun k => congrArg y (funext fun a => Fin.ext (by fin_cases a <;> rfl))
  rw [hf]
  show Finset.fold max (Ideal.ofBits .f32 0xFF800000#32) _ _ = _
  rw [negInf_word]
  rfl

/-- The reference's row maximum at row `r`. -/
theorem rowmax (x0 : FVec Ideal S16384x784 .f32) (x1 : FVec Ideal S3072x784 .f32) (x2 : FVec Ideal S3072 .f32)
    (x3 : FVec Ideal S1536x3072 .f32) (x4 : FVec Ideal S1536 .f32) (x5 : FVec Ideal S768x1536 .f32) (x6 : FVec Ideal S768 .f32)
    (x7 : FVec Ideal S10x768 .f32) (x8 : FVec Ideal S10 .f32) (x9 x10 x11 x12 : FVec Ideal S3072 .f32)
    (x13 x14 x15 x16 : FVec Ideal S1536 .f32) (x17 x18 x19 x20 : FVec Ideal S768 .f32) (r : Fin 16384) :
    Read.val_main_call3_v2 (F := Ideal) x0 x1 x2 x3 x4 x5 x6 x7 x8 x9 x10 x11 x12 x13 x14 x15 x16 x17 x18 x19 x20 (ix1 r)
      = rowMax (fun c' : Fin 10 => Read.val_main_v72 (F := Ideal) x0 x1 x2 x3 x4 x5 x6 x7 x8 x9 x10 x11 x12 x13 x14 x15 x16 x17 x18 x19 x20 (ix2 r c')) := by
  rw [Read.val_main_call3_v2_apply, Read.val_main_call3_v1_apply]
  have hm : Read.val_main_call3_v0 (F := Ideal) x0 x1 x2 x3 x4 x5 x6 x7 x8 x9 x10 x11 x12 x13 x14 x15 x16 x17 x18 x19 x20 (ix1 r)
      = rowMax (fun c' : Fin 10 => Read.val_main_v72 (F := Ideal) x0 x1 x2 x3 x4 x5 x6 x7 x8 x9 x10 x11 x12 x13 x14 x15 x16 x17 x18 x19 x20 (ix2 r c')) := rowmax0 _ _ _ r
  rw [hm]
  show max (Ideal.ofBits .f32 0xFF800000#32) _ = _
  rw [negInf_word]
  exact max_bot_left _

/-- The reference's result at `(r, c)` is the log-softmax of the logits of row `r`. -/
theorem lsm (x0 : FVec Ideal S16384x784 .f32) (x1 : FVec Ideal S3072x784 .f32) (x2 : FVec Ideal S3072 .f32)
    (x3 : FVec Ideal S1536x3072 .f32) (x4 : FVec Ideal S1536 .f32) (x5 : FVec Ideal S768x1536 .f32) (x6 : FVec Ideal S768 .f32)
    (x7 : FVec Ideal S10x768 .f32) (x8 : FVec Ideal S10 .f32) (x9 x10 x11 x12 : FVec Ideal S3072 .f32)
    (x13 x14 x15 x16 : FVec Ideal S1536 .f32) (x17 x18 x19 x20 : FVec Ideal S768 .f32) (r : Fin 16384) (c : Fin 10) :
    Read.val_main_v73 (F := Ideal) x0 x1 x2 x3 x4 x5 x6 x7 x8 x9 x10 x11 x12 x13 x14 x15 x16 x17 x18 x19 x20 (ix2 r c)
      = lsmRef (fun c' : Fin 10 => Read.val_main_v72 (F := Ideal) x0 x1 x2 x3 x4 x5 x6 x7 x8 x9 x10 x11 x12 x13 x14 x15 x16 x17 x18 x19 x20 (ix2 r c')) c := by
  have e5 : ∀ c' : Fin 10, Read.val_main_call3_v5 (F := Ideal) x0 x1 x2 x3 x4 x5 x6 x7 x8 x9 x10 x11 x12 x13 x14 x15 x16 x17 x18 x19 x20 (ix2 r c')
      = Read.val_main_v72 (F := Ideal) x0 x1 x2 x3 x4 x5 x6 x7 x8 x9 x10 x11 x12 x13 x14 x15 x16 x17 x18 x19 x20 (ix2 r c') - rowMax (fun c' : Fin 10 => Read.val_main_v72 (F := Ideal) x0 x1 x2 x3 x4 x5 x6 x7 x8 x9 x10 x11 x12 x13 x14 x15 x16 x17 x18 x19 x20 (ix2 r c')) := by
    intro c'
    rw [Read.val_main_call3_v5_apply, Read.val_main_call3_v4_apply, Read.val_main_call3_v3_apply]
    have ei : Read.idx_main_call3_v3 (Read.idx_main_call3_v4 (ix2 r c')) = ix1 r :=
      funext fun a => by match a with | ⟨0, _⟩ => rfl
    rw [ei, rowmax]
    rfl
  have e7 : Read.val_main_call3_v7 (F := Ideal) x0 x1 x2 x3 x4 x5 x6 x7 x8 x9 x10 x11 x12 x13 x14 x15 x16 x17 x18 x19 x20 (ix1 r)
      = ∑ c' : Fin 10, Ideal.exp (Read.val_main_v72 (F := Ideal) x0 x1 x2 x3 x4 x5 x6 x7 x8 x9 x10 x11 x12 x13 x14 x15 x16 x17 x18 x19 x20 (ix2 r c') - rowMax (fun c' : Fin 10 => Read.val_main_v72 (F := Ideal) x0 x1 x2 x3 x4 x5 x6 x7 x8 x9 x10 x11 x12 x13 x14 x15 x16 x17 x18 x19 x20 (ix2 r c'))) := by
    rw [Read.val_main_call3_v7_apply, Read.val_main_call3_cst_1_apply, Ideal.ofBits_def, Ideal.ofBits_zero_f32, zero_add]
    refine Finset.sum_congr rfl fun k _ => ?_
    have ei : Read.idx_main_call3_v7 (ix1 r) k = ix2 r k :=
      funext fun a => by match a with | ⟨0, _⟩ => rfl | ⟨1, _⟩ => rfl
    rw [ei, Read.val_main_call3_v6_apply, e5]
    rfl
  rw [Read.val_main_v73_apply, Read.val_main_call3_v10_apply, Read.val_main_call3_v9_apply, Read.val_main_call3_v8_apply]
  have ei : Read.idx_main_call3_v8 (Read.idx_main_call3_v10 (ix2 r c)) = ix1 r :=
    funext fun a => by match a with | ⟨0, _⟩ => rfl
  rw [ei, e7, e5]
  rfl

/-- The reference's result at `(r, c)`. -/
theorem ref_apply (x0 : FVec Ideal S16384x784 .f32) (x1 : FVec Ideal S3072x784 .f32) (x2 : FVec Ideal S3072 .f32)
    (x3 : FVec Ideal S1536x3072 .f32) (x4 : FVec Ideal S1536 .f32) (x5 : FVec Ideal S768x1536 .f32) (x6 : FVec Ideal S768 .f32)
    (x7 : FVec Ideal S10x768 .f32) (x8 : FVec Ideal S10 .f32) (x9 x10 x11 x12 : FVec Ideal S3072 .f32)
    (x13 x14 x15 x16 : FVec Ideal S1536 .f32) (x17 x18 x19 x20 : FVec Ideal S768 .f32) (r : Fin 16384) (c : Fin 10) :
    Cert.ReferenceIdeal.Read.val_main_v73 (F := Ideal) x0 x1 x2 x3 x4 x5 x6 x7 x8 x9 x10 x11 x12 x13 x14 x15 x16 x17 x18 x19 x20 (ix2 r c)
      = (netOf x1 x2 x3 x4 x5 x6 x7 x8 x9 x10 x11 x12 x13 x14 x15 x16 x17 x18 x19 x20).refRow (rowOf x0 r) c := by
  have hl : (fun c' : Fin 10 => Read.val_main_v72 (F := Ideal) x0 x1 x2 x3 x4 x5 x6 x7 x8 x9 x10 x11 x12 x13 x14 x15 x16 x17 x18 x19 x20 (ix2 r c'))
      = logits (fun c k => x7 (ix2 c k)) (fun c => x8 (ix1 c)) (act3 x0 x1 x2 x9 x10 x11 x12 x3 x4 x13 x14 x15 x16 x5 x6 x17 x18 x19 x20 r) :=
    funext fun c' => logit x0 x1 x2 x3 x4 x5 x6 x7 x8 x9 x10 x11 x12 x13 x14 x15 x16 x17 x18 x19 x20 r c'
  rw [lsm, hl]
  rfl

end Cert.Mlp.RefValue

end
-- ==== Proof.LibDot.lean ====
/-
  A product of an `[m, k]` array by a `[k, n]` array over ONE contracted axis, read at an output index `(p, e)` on the
  extended reals as the plain sum `∑ⱼ A[p, j] · B[j, e]` over `j : Fin k` — for the vector unit's matrix product into a zero
  accumulator and for the host's `dot_general` alike, whatever the two operands' float formats.  The dimension numbers
  enter only through four facts: where they send an output index and a contraction index in each operand.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index, re-indexed by the contracted axis's one coordinate. -/
theorem contract_sum {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (A : FVec Ideal ⟨2, ![m, k]⟩ φ₁) (B : FVec Ideal ⟨2, ![k, n]⟩ φ₂) (p : Fin m) (e : Fin n) :
    ∑ q : D.contr.Idx, A (D.lhsIdx (ix2 p e) q) * B (D.rhsIdx (ix2 p e) q) = ∑ j : Fin k, A (ix2 p j) * B (ix2 j e) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

/-- The vector unit's matrix product into the zero accumulator, at `(p, e)`. -/
theorem matmul_zero_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ φ₁) (B : FVec Ideal ⟨2, ![k, n]⟩ φ₂)
    (p : Fin m) (e : Fin n) :
    FloatOps.matmul D prec A B (constant ⟨2, ![m, n]⟩ .f32 0x00000000#32) (ix2 p e) = ∑ j : Fin k, A (ix2 p j) * B (ix2 j e) :=
  (Ideal.matmul_constant_zero_apply D prec A B (ix2 p e)).trans (contract_sum D hr hs hl0 hl1 hr0 hr1 A B p e)

/-- The host's `dot_general`, at `(p, e)`. -/
theorem dotGeneral_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (sched : HostSchedule) (A : FVec Ideal ⟨2, ![m, k]⟩ φ₁) (B : FVec Ideal ⟨2, ![k, n]⟩ φ₂)
    (p : Fin m) (e : Fin n) :
    FloatOps.dotGeneral D prec sched A B (ix2 p e) = ∑ j : Fin k, A (ix2 p j) * B (ix2 j e) :=
  (Ideal.dotGeneral_apply D prec sched A B (ix2 p e)).trans (contract_sum D hr hs hl0 hl1 hr0 hr1 A B p e)

end Cert.LibDot

end
-- ==== Proof.LibRowwise.lean ====
/-
  Layout operations of row-wise kernels read at an index written by coordinates, over abstract extents, and a
  matrix product into a zero accumulator read as a plain sum.

  * a vector of `a` entries cast to a column `[a, 1]` reads, at `(i, u)`, the vector at `i`;
  * a column `[a, 1]` broadcast to `[a, b]` reads, at `(p, c)`, the column at `(p, 0)`: every entry of a row is the row's one value;
  * two arrays `[R, a]` and `[R, b]` joined along the second axis read, at `(r, j)`, the first at `(r, j)` when `j < a`
    and the second at `(r, j - a)` otherwise;
  * a product of an `[m, k]` by a `[k, n]` array contracting the first's columns with the second's rows, accumulated into
    zero, is `∑ⱼ A[p, j] · B[j, e]` at `(p, e)` on the extended reals.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibRowwise

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two arrays joined along the second axis, read at `(r, j)`: the first below its width `a`, the second from `a` on. -/
theorem concatenate_cols_apply {R a b c : ℕ} (hc : c = a + b) (x : (⟨2, ![R, a]⟩ : Shape).Idx → α) (y : (⟨2, ![R, b]⟩ : Shape).Idx → α)
    (h : Shape.Concatenates [(⟨2, ![R, a]⟩ : Shape), ⟨2, ![R, b]⟩] ⟨2, ![R, c]⟩ (1 : Fin 2)) (r : Fin R) (j : Fin c) :
    concatenate ⟨2, ![R, c]⟩ (1 : Fin 2) [⟨⟨2, ![R, a]⟩, x⟩, ⟨⟨2, ![R, b]⟩, y⟩] h (ix2 r j)
      = if hj : j.val < a then x (ix2 r ⟨j.val, hj⟩) else y (ix2 r ⟨j.val - a, by have := j.isLt; omega⟩) := by
  by_cases hj : j.val < a
  · rw [dif_pos hj]
    exact concatenate_pair_apply_left (1 : Fin 2) x y h (ix2 r j) rfl (ix2 r ⟨j.val, hj⟩) (fun d => by
      match d with
      | ⟨0, _⟩ => rfl
      | ⟨1, _⟩ => rfl)
  · rw [dif_neg hj]
    exact concatenate_pair_apply_right (1 : Fin 2) x y h (ix2 r j) rfl rfl
      (ix2 r ⟨j.val - a, by have := j.isLt; omega⟩) (fun d hd => by
        match d with
        | ⟨0, _⟩ => rfl
        | ⟨1, _⟩ => exact absurd rfl hd) (by show (j.val - a) + a = j.val; omega)

/-- A matrix product of rows by columns into the zero accumulator, at `(p, e)`: the sum over the one contracted
    coordinate of `A[p, j] · B[j, e]`.  The four hypotheses say where the product's dimension numbers send an output
    index and a contraction index in each operand (rows of the first with its columns contracted against the rows of
    the second). -/
theorem matmul_zero_apply {m k n : ℕ} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ .f32) (B : FVec Ideal ⟨2, ![k, n]⟩ .f32)
    (p : Fin m) (e : Fin n) :
    FloatOps.matmul D prec A B (constant ⟨2, ![m, n]⟩ .f32 0x00000000#32) (ix2 p e) = ∑ j : Fin k, A (ix2 p j) * B (ix2 j e) := by
  rw [Ideal.matmul_constant_zero_apply, ← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

end Cert.LibRowwise

end
-- ==== Proof.KerValue.lean ====
/-
  One grid point's result block, entry by entry: the block the body leaves at `(p, c)` is row `p` of the point's input
  block put through the network in its folded form, when the parameter blocks hold the signs of the weights (input axis
  first), the folded scales and shifts as single rows, the last layer's weights (input axis first) and its bias row.
-/
import proofs.«105552_j3582002725506_2_alg».proof.Proof.Gen.KernelIdeal.Value
import proofs.«105552_j3582002725506_2_alg».proof.Proof.NetOf
import proofs.«105552_j3582002725506_2_alg».proof.Proof.LibDot
import proofs.«105552_j3582002725506_2_alg».proof.Proof.LibRowwise
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Mlp.KerValue

open Idealize.ShloMosaic Idealize.ShloMosaic.ValueIdx Cert.KernelIdeal Cert.KernelIdeal.Gen

/-! ### The four matrix products, each into a zero accumulator, read at an entry -/

theorem mm1 {φ₁ φ₂ : FTy} (A : FVec Ideal S512x784 φ₁) (B : FVec Ideal S784x3072 φ₂) (p : Fin 512) (e : Fin 3072) :
    FloatOps.matmul dot_S512x784_S784x3072_S512x3072_1_0_0_1_n_n none A B (constant S512x3072 .f32 0x00000000#32) (ix2 p e)
      = ∑ j : Fin 784, A (ix2 p j) * B (ix2 j e) :=
  Cert.LibDot.matmul_zero_apply dot_S512x784_S784x3072_S512x3072_1_0_0_1_n_n rfl rfl
    (fun i q => by
      unfold DotDims.lhsIdx
      rw [dif_neg (show ¬(0 : Fin S512x784.rank) ∈ dot_S512x784_S784x3072_S512x3072_1_0_0_1_n_n.lhsBatch by decide),
        dif_pos (show (0 : Fin S512x784.rank) ∈ dot_S512x784_S784x3072_S512x3072_1_0_0_1_n_n.lhsNonContracting by decide)]
      rfl)
    (fun i q => dot_S512x784_S784x3072_S512x3072_1_0_0_1_n_n.lhsIdx_val_of_single rfl i q)
    (fun i q => dot_S512x784_S784x3072_S512x3072_1_0_0_1_n_n.rhsIdx_val_of_single rfl i q)
    (fun i q => by
      unfold DotDims.rhsIdx
      rw [dif_neg (show ¬(1 : Fin S784x3072.rank) ∈ dot_S512x784_S784x3072_S512x3072_1_0_0_1_n_n.rhsBatch by decide),
        dif_pos (show (1 : Fin S784x3072.rank) ∈ dot_S512x784_S784x3072_S512x3072_1_0_0_1_n_n.rhsNonContracting by decide)]
      rfl)
    none A B p e

theorem mm2 {φ₁ φ₂ : FTy} (A : FVec Ideal S512x3072 φ₁) (B : FVec Ideal S3072x1536 φ₂) (p : Fin 512) (e : Fin 1536) :
    FloatOps.matmul dot_S512x3072_S3072x1536_S512x1536_1_0_0_1_n_n none A B (constant S512x1536 .f32 0x00000000#32) (ix2 p e)
      = ∑ j : Fin 3072, A (ix2 p j) * B (ix2 j e) :=
  Cert.LibDot.matmul_zero_apply dot_S512x3072_S3072x1536_S512x1536_1_0_0_1_n_n rfl rfl
    (fun i q => by
      unfold DotDims.lhsIdx
      rw [dif_neg (show ¬(0 : Fin S512x3072.rank) ∈ dot_S512x3072_S3072x1536_S512x1536_1_0_0_1_n_n.lhsBatch by decide),
        dif_pos (show (0 : Fin S512x3072.rank) ∈ dot_S512x3072_S3072x1536_S512x1536_1_0_0_1_n_n.lhsNonContracting by decide)]
      rfl)
    (fun i q => dot_S512x3072_S3072x1536_S512x1536_1_0_0_1_n_n.lhsIdx_val_of_single rfl i q)
    (fun i q => dot_S512x3072_S3072x1536_S512x1536_1_0_0_1_n_n.rhsIdx_val_of_single rfl i q)
    (fun i q => by
      unfold DotDims.rhsIdx
      rw [dif_neg (show ¬(1 : Fin S3072x1536.rank) ∈ dot_S512x3072_S3072x1536_S512x1536_1_0_0_1_n_n.rhsBatch by decide),
        dif_pos (show (1 : Fin S3072x1536.rank) ∈ dot_S512x3072_S3072x1536_S512x1536_1_0_0_1_n_n.rhsNonContracting by decide)]
      rfl)
    none A B p e

theorem mm3 {φ₁ φ₂ : FTy} (A : FVec Ideal S512x1536 φ₁) (B : FVec Ideal S1536x768 φ₂) (p : Fin 512) (e : Fin 768) :
    FloatOps.matmul dot_S512x1536_S1536x768_S512x768_1_0_0_1_n_n none A B (constant S512x768 .f32 0x00000000#32) (ix2 p e)
      = ∑ j : Fin 1536, A (ix2 p j) * B (ix2 j e) :=
  Cert.LibDot.matmul_zero_apply dot_S512x1536_S1536x768_S512x768_1_0_0_1_n_n rfl rfl
    (fun i q => by
      unfold DotDims.lhsIdx
      rw [dif_neg (show ¬(0 : Fin S512x1536.rank) ∈ dot_S512x1536_S1536x768_S512x768_1_0_0_1_n_n.lhsBatch by decide),
        dif_pos (show (0 : Fin S512x1536.rank) ∈ dot_S512x1536_S1536x768_S512x768_1_0_0_1_n_n.lhsNonContracting by decide)]
      rfl)
    (fun i q => dot_S512x1536_S1536x768_S512x768_1_0_0_1_n_n.lhsIdx_val_of_single rfl i q)
    (fun i q => dot_S512x1536_S1536x768_S512x768_1_0_0_1_n_n.rhsIdx_val_of_single rfl i q)
    (fun i q => by
      unfold DotDims.rhsIdx
      rw [dif_neg (show ¬(1 : Fin S1536x768.rank) ∈ dot_S512x1536_S1536x768_S512x768_1_0_0_1_n_n.rhsBatch by decide),
        dif_pos (show (1 : Fin S1536x768.rank) ∈ dot_S512x1536_S1536x768_S512x768_1_0_0_1_n_n.rhsNonContracting by decide)]
      rfl)
    none A B p e

theorem mm4 {φ₁ φ₂ : FTy} (A : FVec Ideal S512x768 φ₁) (B : FVec Ideal S768x10 φ₂) (p : Fin 512) (e : Fin 10) :
    FloatOps.matmul dot_S512x768_S768x10_S512x10_1_0_0_1_n_n none A B (constant S512x10 .f32 0x00000000#32) (ix2 p e)
      = ∑ j : Fin 768, A (ix2 p j) * B (ix2 j e) :=
  Cert.LibDot.matmul_zero_apply dot_S512x768_S768x10_S512x10_1_0_0_1_n_n rfl rfl
    (fun i q => by
      unfold DotDims.lhsIdx
      rw [dif_neg (show ¬(0 : Fin S512x768.rank) ∈ dot_S512x768_S768x10_S512x10_1_0_0_1_n_n.lhsBatch by decide),
        dif_pos (show (0 : Fin S512x768.rank) ∈ dot_S512x768_S768x10_S512x10_1_0_0_1_n_n.lhsNonContracting by decide)]
      rfl)
    (fun i q => dot_S512x768_S768x10_S512x10_1_0_0_1_n_n.lhsIdx_val_of_single rfl i q)
    (fun i q => dot_S512x768_S768x10_S512x10_1_0_0_1_n_n.rhsIdx_val_of_single rfl i q)
    (fun i q => by
      unfold DotDims.rhsIdx
      rw [dif_neg (show ¬(1 : Fin S768x10.rank) ∈ dot_S512x768_S768x10_S512x10_1_0_0_1_n_n.rhsBatch by decide),
        dif_pos (show (1 : Fin S768x10.rank) ∈ dot_S512x768_S768x10_S512x10_1_0_0_1_n_n.rhsNonContracting by decide)]
      rfl)
    none A B p e

/-! ### The sign of a whole array, entry by entry -/

/-- One where the entry is above zero, minus one where it is below, the entry itself (zero) otherwise: the sign. -/
theorem sign_vec {s : Shape} (x : FVec Ideal s .f32) :
    select (cmpf .ogt (absf x) (broadcast s (Scalar.ofBits .f32 0x00000000#32)))
        (select (cmpf .olt x (constant s .f32 0x00000000#32)) (constant s .f32 0xBF800000#32)
          (constant s .f32 0x3F800000#32)) x
      = fun i => Ideal.sign (x i) :=
  funext fun i => Ideal.jnp_sign_eq_sign_f32 (x i)

/-! ### The first two layers -/

/-- The block after the second layer's scale, at `(p, j)`. -/
theorem pay2_apply (P0 : Vec Ideal S512x784 .f32) (P1 P1' : Vec Ideal S784x3072 .bf16) (P2 P3 : Vec Ideal S1x3072 .f32)
    (P4 : Vec Ideal S3072x1536 .bf16) (P5 : Vec Ideal S1x1536 .f32) (p : Fin 512) (j : Fin 1536) :
    k0_pay2 (F := Ideal) P0 P1 P1' P2 P3 P4 P5 (ix2 p j)
      = (∑ i : Fin 3072, Ideal.sign (((∑ k : Fin 784, P0 (ix2 p k) * P1 (ix2 k i))
            + ∑ k : Fin 784, (P0 (ix2 p k) - P0 (ix2 p k)) * P1' (ix2 k i)) * P2 (ix2 (0 : Fin 1) i) + P3 (ix2 (0 : Fin 1) i))
          * P4 (ix2 i j)) * P5 (ix2 (0 : Fin 1) j) := by
  unfold k0_pay2
  simp only [shapeCast_self, sign_vec, mulf_apply, addf_apply, subf_apply, truncf_apply, broadcastTo_1b_ab_apply, matmul, mm1, mm2]

/-- The words of minus one and of one. -/
theorem ofBits_negOne : Scalar.ofBits (F := Ideal) .f32 0xBF800000#32 = -1 := IdealRules.sign_bit.ideal_negOnePat .f32
theorem ofBits_one : Scalar.ofBits (F := Ideal) .f32 0x3F800000#32 = 1 := IdealRules.sign_bit.ideal_onePat .f32

/-! ### The last two layers -/

/-- The logits block at `(p, c)`, from the block `X` after the second layer's scale. -/
theorem pay4_apply (X : FVec Ideal S512x1536 .f32) (P6 : FVec Ideal S1x1536 .f32) (P7 : Vec Ideal S1536x768 .bf16)
    (P8 P9 : Vec Ideal S1x768 .f32) (P10 : Vec Ideal S768x10 .bf16) (P11 : Vec Ideal S1x10 .f32) (p : Fin 512) (c : Fin 10) :
    k0_pay4 (F := Ideal) X P6 P7 P8 P9 P10 P11 (ix2 p c)
      = (∑ k : Fin 768, min 1 (max (-1) ((∑ j : Fin 1536, Ideal.sign (X (ix2 p j) + P6 (ix2 (0 : Fin 1) j)) * P7 (ix2 j k))
            * P8 (ix2 (0 : Fin 1) k) + P9 (ix2 (0 : Fin 1) k))) * P10 (ix2 k c)) + P11 (ix2 (0 : Fin 1) c) := by
  unfold k0_pay4
  simp only [shapeCast_self, sign_vec, mulf_apply, addf_apply, truncf_apply, broadcastTo_1b_ab_apply, matmul, mm3, mm4,
    minimumf_apply, maximumf_apply, broadcast_apply, ofBits_negOne, ofBits_one]

/-! ### The row maximum, the row sum and the log-softmax of a `[512, 10]` block -/

/-- The word of `−∞`. -/
theorem ofBits_negInf : FloatOps.ofBits (F := Ideal) .f32 0xFF800000#32 = (⊥ : EReal) := by
  show Ideal.ofBits .f32 0xFF800000#32 = ⊥
  simp [Ideal.ofBits, Ideal.ieee]

/-- Row `p`'s index with the lane `d` put back is `(p, d)`. -/
theorem lift_eq (h : S512x10.Reduces [1] S512) (p : Fin 512) (d : Fin 10) : h.lift (ix1 p) d = ix2 p d :=
  funext fun ax => Fin.ext (by
    match ax with
    | ⟨0, _⟩ => rfl
    | ⟨1, _⟩ => rfl)

/-- The maximum along the lanes, at row `p`. -/
theorem row_max_apply (L : FVec Ideal S512x10 .f32) (h : S512x10.Reduces [1] S512) (hφ : FKind.Formats .f32)
    (hacc : (0xFF800000#32 : BitVec 32) = FKind.maximumf.neutral .f32 hφ) (p : Fin 512) :
    multiReduction .maximumf [1] S512 L 0xFF800000#32 h hφ hacc (ix1 p) = rowMax (fun c' : Fin 10 => L (ix2 p c')) := by
  refine (Ideal.multiReduction_maximumf_single L _ h hφ hacc (ix1 p)).trans ?_
  show (Finset.univ : Finset (Fin 10)).fold max (FloatOps.ofBits .f32 0xFF800000#32) (fun d => L (h.lift (ix1 p) d)) = _
  rw [ofBits_negInf]
  exact congrArg ((Finset.univ : Finset (Fin 10)).fold max ⊥) (funext fun d => congrArg L (lift_eq h p d))

/-- The sum along the lanes, at row `p`. -/
theorem row_sum_apply (E : FVec Ideal S512x10 .f32) (h : S512x10.Reduces [1] S512) (hφ : FKind.Formats .f32)
    (hacc : (0x00000000#32 : BitVec 32) = FKind.add.neutral .f32 hφ) (p : Fin 512) :
    multiReduction .add [1] S512 E 0x00000000#32 h hφ hacc (ix1 p) = ∑ d : Fin 10, E (ix2 p d) := by
  refine (Ideal.multiReduction_add_single E _ h hφ hacc (ix1 p)).trans ?_
  show (∑ d : Fin 10, E (h.lift (ix1 p) d)) = _
  exact Finset.sum_congr rfl fun d _ => congrArg E (lift_eq h p d)

/-- The entry less (row maximum plus the log of the row's sum of exponentials of entries less the row maximum): the
    log-softmax of row `p` at `c`. -/
theorem lsm_apply (L : FVec Ideal S512x10 .f32) (h : S512x10.Reduces [1] S512) (hφ : FKind.Formats .f32)
    (hmax : (0xFF800000#32 : BitVec 32) = FKind.maximumf.neutral .f32 hφ)
    (hadd : (0x00000000#32 : BitVec 32) = FKind.add.neutral .f32 hφ)
    (hsc : S512.ShapeCasts S512x1) (hb : S512x1.Broadcasts S512x10) (p : Fin 512) (c : Fin 10)
    (y0 : S512x10.Idx) (y1 y2 : S512.Idx) (h0 : y0 = ix2 p c) (h1 : y1 = ix1 p) (h2 : y2 = ix1 p) :
    FloatOps.subf (L y0) (FloatOps.addf (multiReduction .maximumf [1] S512 L 0xFF800000#32 h hφ hmax y1)
      (FloatOps.log (multiReduction .add [1] S512 (exp (subf L (broadcastTo S512x10 (shapeCast S512x1
        (multiReduction .maximumf [1] S512 L 0xFF800000#32 h hφ hmax) hsc) hb))) 0x00000000#32 h hφ hadd y2)))
      = lsmKer (fun c' : Fin 10 => L (ix2 p c')) c := by
  subst h0 h1 h2
  have hM := row_max_apply L h hφ hmax p
  have hE : ∀ d : Fin 10, exp (subf L (broadcastTo S512x10 (shapeCast S512x1
        (multiReduction .maximumf [1] S512 L 0xFF800000#32 h hφ hmax) hsc) hb)) (ix2 p d)
      = Ideal.exp (L (ix2 p d) - rowMax (fun c' : Fin 10 => L (ix2 p c'))) := fun d => by
    show Ideal.exp (L (ix2 p d) - broadcastTo S512x10 (shapeCast S512x1
        (multiReduction .maximumf [1] S512 L 0xFF800000#32 h hφ hmax) hsc) hb (ix2 p d)) = _
    rw [Cert.LibRowwise.broadcastTo_a1_ab_apply, Cert.LibRowwise.shapeCast_a_a1_apply, hM]
  rw [row_sum_apply, hM]
  simp only [hE]
  rfl

/-! ### The logits block, and the result block -/

/-- The logits block at `(p, c)` is the last layer on the folded network's hidden row of row `p`. -/
theorem logits_apply (P0 : Vec Ideal S512x784 .f32) (P1 : Vec Ideal S784x3072 .bf16) (P2 P3 : Vec Ideal S1x3072 .f32)
    (P4 : Vec Ideal S3072x1536 .bf16) (P5 P6 : Vec Ideal S1x1536 .f32) (P7 : Vec Ideal S1536x768 .bf16)
    (P8 P9 : Vec Ideal S1x768 .f32) (P10 : Vec Ideal S768x10 .bf16) (P11 : Vec Ideal S1x10 .f32)
    (N : Net 784 3072 1536 768 10)
    (hw1 : ∀ (k : Fin 784) (j : Fin 3072), P1 (ix2 k j) = Ideal.sign (N.l1.w j k))
    (hs1 : ∀ j : Fin 3072, P2 (ix2 (0 : Fin 1) j) = N.l1.scale N.eps j)
    (hsh1 : ∀ j : Fin 3072, P3 (ix2 (0 : Fin 1) j) = N.l1.shift N.eps j)
    (hw2 : ∀ (k : Fin 3072) (j : Fin 1536), P4 (ix2 k j) = Ideal.sign (N.l2.w j k))
    (hs2 : ∀ j : Fin 1536, P5 (ix2 (0 : Fin 1) j) = N.l2.scale N.eps j)
    (hsh2 : ∀ j : Fin 1536, P6 (ix2 (0 : Fin 1) j) = N.l2.shift N.eps j)
    (hw3 : ∀ (k : Fin 1536) (j : Fin 768), P7 (ix2 k j) = Ideal.sign (N.l3.w j k))
    (hs3 : ∀ j : Fin 768, P8 (ix2 (0 : Fin 1) j) = N.l3.scale N.eps j)
    (hsh3 : ∀ j : Fin 768, P9 (ix2 (0 : Fin 1) j) = N.l3.shift N.eps j)
    (hw4 : ∀ (k : Fin 768) (c : Fin 10), P10 (ix2 k c) = N.w4 c k)
    (hb4 : ∀ c : Fin 10, P11 (ix2 (0 : Fin 1) c) = N.b4 c)
    (hsc : S1x1536.ShapeCasts S1x1536) (p : Fin 512) (c : Fin 10) :
    k0_pay4 (F := Ideal) (k0_pay2 P0 P1 P1 P2 P3 P4 P5) (shapeCast S1x1536 P6 hsc) P7 P8 P9 P10 P11 (ix2 p c)
      = logits N.w4 N.b4 (N.kerHidden (fun k => P0 (ix2 p k))) c := by
  refine (pay4_apply _ _ _ _ _ _ _ p c).trans ?_
  simp only [pay2_apply, shapeCast_self, hw1, hs1, hsh1, hw2, hs2, hsh2, hw3, hs3, hsh3, hw4, hb4]
  rfl

/-- The block at `(p, c)` is the folded network on row `p` of the input block. -/
theorem block_apply (P0 : Vec Ideal S512x784 .f32) (P1 : Vec Ideal S784x3072 .bf16) (P2 P3 : Vec Ideal S1x3072 .f32)
    (P4 : Vec Ideal S3072x1536 .bf16) (P5 P6 : Vec Ideal S1x1536 .f32) (P7 : Vec Ideal S1536x768 .bf16)
    (P8 P9 : Vec Ideal S1x768 .f32) (P10 : Vec Ideal S768x10 .bf16) (P11 : Vec Ideal S1x10 .f32)
    (N : Net 784 3072 1536 768 10)
    (hw1 : ∀ (k : Fin 784) (j : Fin 3072), P1 (ix2 k j) = Ideal.sign (N.l1.w j k))
    (hs1 : ∀ j : Fin 3072, P2 (ix2 (0 : Fin 1) j) = N.l1.scale N.eps j)
    (hsh1 : ∀ j : Fin 3072, P3 (ix2 (0 : Fin 1) j) = N.l1.shift N.eps j)
    (hw2 : ∀ (k : Fin 3072) (j : Fin 1536), P4 (ix2 k j) = Ideal.sign (N.l2.w j k))
    (hs2 : ∀ j : Fin 1536, P5 (ix2 (0 : Fin 1) j) = N.l2.scale N.eps j)
    (hsh2 : ∀ j : Fin 1536, P6 (ix2 (0 : Fin 1) j) = N.l2.shift N.eps j)
    (hw3 : ∀ (k : Fin 1536) (j : Fin 768), P7 (ix2 k j) = Ideal.sign (N.l3.w j k))
    (hs3 : ∀ j : Fin 768, P8 (ix2 (0 : Fin 1) j) = N.l3.scale N.eps j)
    (hsh3 : ∀ j : Fin 768, P9 (ix2 (0 : Fin 1) j) = N.l3.shift N.eps j)
    (hw4 : ∀ (k : Fin 768) (c : Fin 10), P10 (ix2 k c) = N.w4 c k)
    (hb4 : ∀ c : Fin 10, P11 (ix2 (0 : Fin 1) c) = N.b4 c)
    (p : Fin 512) (c : Fin 10) :
    Cert.KernelIdeal.Value.E12 (F := Ideal) P0 P1 P2 P3 P4 P5 P6 P7 P8 P9 P10 P11 (ix2 p c)
      = N.kerRow (fun k => P0 (ix2 p k)) c := by
  refine (lsm_apply _ _ _ _ _ _ _ p c _ _ _ ?_ ?_ ?_).trans ?_
  · exact funext fun a => by
      match a with
      | ⟨0, _⟩ => rfl
      | ⟨1, _⟩ => rfl
  · exact funext fun a => by
      match a with
      | ⟨0, _⟩ => rfl
  · exact funext fun a => by
      match a with
      | ⟨0, _⟩ => rfl
  · exact congrArg (fun l => lsmKer l c) (funext fun c' =>
      logits_apply P0 P1 P2 P3 P4 P5 P6 P7 P8 P9 P10 P11 N hw1 hs1 hsh1 hw2 hs2 hsh2 hw3 hs3 hsh3 hw4 hb4 _ p c')

end Cert.Mlp.KerValue

end
-- ==== Proof.KerArray.lean ====
/-
  The idealized kernel's whole result array as one function of the argument arrays: entry `(r, c)` is row `r` of the
  input put through the folded network of the twenty parameter arrays.

  The parameter windows hold, before the grid runs, the transposed signs of the three binarized layers' weights, the
  transposed weights of the last layer, each normalisation folded into one scale `g · rsqrt (v + ε)` and one shift
  `b · scale + (β − μ · scale)` per output as a single row, and the last bias as a single row.  Every grid point `t`
  sees these whole, and rows `512 t … 512 t + 511` of the input; the block it leaves is the folded network on those
  rows, and the 32 blocks tile the result.
-/
import proofs.«105552_j3582002725506_2_alg».proof.Proof.KerValue
import proofs.«105552_j3582002725506_2_alg».proof.Proof.Gen.KernelIdeal.Value
import proofs.«105552_j3582002725506_2_alg».proof.Proof.NetOf
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open scoped BigOperators

namespace Cert.Mlp.KerArray

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The parameter windows' arrays when the grid starts -/

/-- Window 1's array: the first layer's weight signs, transposed, in the narrower format. -/
theorem V_v2 (c : Dev nD) : @Eq (FVec Ideal S784x3072 .bf16) (V m c main_v2)
    (truncf .bf16 (transpose S784x3072 [1, 0] (Host.sign (m ((c : Thread nD τ).loc main_arg1) : FVec Ideal S3072x784 .f32)) transposes_S3072x784_S784x3072_1_0) bitsLt_bf16_f32) := by
  dsimp only [Gen.V, Gen.hostOps0]
  after_results_simp
  first | done | rfl

/-- Window 2's array: the second layer's weight signs, transposed, in the narrower format. -/
theorem V_v5 (c : Dev nD) : @Eq (FVec Ideal S3072x1536 .bf16) (V m c main_v5)
    (truncf .bf16 (transpose S3072x1536 [1, 0] (Host.sign (m ((c : Thread nD τ).loc main_arg3) : FVec Ideal S1536x3072 .f32)) transposes_S1536x3072_S3072x1536_1_0) bitsLt_bf16_f32) := by
  dsimp only [Gen.V, Gen.hostOps0]
  after_results_simp
  first | done | rfl

/-- Window 3's array: the third layer's weight signs, transposed, in the narrower format. -/
theorem V_v8 (c : Dev nD) : @Eq (FVec Ideal S1536x768 .bf16) (V m c main_v8)
    (truncf .bf16 (transpose S1536x768 [1, 0] (Host.sign (m ((c : Thread nD τ).loc main_arg5) : FVec Ideal S768x1536 .f32)) transposes_S768x1536_S1536x768_1_0) bitsLt_bf16_f32) := by
  dsimp only [Gen.V, Gen.hostOps0]
  after_results_simp
  first | done | rfl

/-- Window 4's array: the last layer's weights, transposed, in the narrower format. -/
theorem V_v10 (c : Dev nD) : @Eq (FVec Ideal S768x10 .bf16) (V m c main_v10)
    (truncf .bf16 (transpose S768x10 [1, 0] (m ((c : Thread nD τ).loc main_arg7) : FVec Ideal S10x768 .f32) transposes_S10x768_S768x10_1_0) bitsLt_bf16_f32) := by
  dsimp only [Gen.V, Gen.hostOps0]
  after_results_simp
  first | done | rfl

/-- Window 5's array: the first layer's folded scale `g · rsqrt (v + ε)` as one row. -/
theorem V_v19 (c : Dev nD) : @Eq (FVec Ideal S1x3072 .f32) (V m c main_v19)
    (shapeCast S1x3072 (mulf (m ((c : Thread nD τ).loc main_arg9) : FVec Ideal S3072 .f32) (Host.rsqrt (addf (m ((c : Thread nD τ).loc main_arg12) : FVec Ideal S3072 .f32) (broadcastInDim S3072 ![] bcast_S_S3072 (constant (F := Ideal) S_ .f32 0x3727C5AC#32))))) shapeCasts_S3072_S1x3072) := by
  dsimp only [Gen.V, Gen.hostOps0]
  after_results_simp
  first | done | rfl

/-- Window 6's array: the first layer's folded shift `b · scale + (β − μ · scale)` as one row. -/
theorem V_v20 (c : Dev nD) : @Eq (FVec Ideal S1x3072 .f32) (V m c main_v20)
    (shapeCast S1x3072 (addf (mulf (m ((c : Thread nD τ).loc main_arg2) : FVec Ideal S3072 .f32) (mulf (m ((c : Thread nD τ).loc main_arg9) : FVec Ideal S3072 .f32) (Host.rsqrt (addf (m ((c : Thread nD τ).loc main_arg12) : FVec Ideal S3072 .f32) (broadcastInDim S3072 ![] bcast_S_S3072 (constant (F := Ideal) S_ .f32 0x3727C5AC#32)))))) (subf (m ((c : Thread nD τ).loc main_arg10) : FVec Ideal S3072 .f32) (mulf (m ((c : Thread nD τ).loc main_arg11) : FVec Ideal S3072 .f32) (mulf (m ((c : Thread nD τ).loc main_arg9) : FVec Ideal S3072 .f32) (Host.rsqrt (addf (m ((c : Thread nD τ).loc main_arg12) : FVec Ideal S3072 .f32) (broadcastInDim S3072 ![] bcast_S_S3072 (constant (F := Ideal) S_ .f32 0x3727C5AC#32)))))))) shapeCasts_S3072_S1x3072) := by
  dsimp only [Gen.V, Gen.hostOps0]
  after_results_simp
  first | done | rfl

/-- Window 7's array: the second layer's folded scale as one row. -/
theorem V_v29 (c : Dev nD) : @Eq (FVec Ideal S1x1536 .f32) (V m c main_v29)
    (shapeCast S1x1536 (mulf (m ((c : Thread nD τ).loc main_arg13) : FVec Ideal S1536 .f32) (Host.rsqrt (addf (m ((c : Thread nD τ).loc main_arg16) : FVec Ideal S1536 .f32) (broadcastInDim S1536 ![] bcast_S_S1536 (constant (F := Ideal) S_ .f32 0x3727C5AC#32))))) shapeCasts_S1536_S1x1536) := by
  dsimp only [Gen.V, Gen.hostOps0]
  after_results_simp
  first | done | rfl

/-- Window 8's array: the second layer's folded shift as one row. -/
theorem V_v30 (c : Dev nD) : @Eq (FVec Ideal S1x1536 .f32) (V m c main_v30)
    (shapeCast S1x1536 (addf (mulf (m ((c : Thread nD τ).loc main_arg4) : FVec Ideal S1536 .f32) (mulf (m ((c : Thread nD τ).loc main_arg13) : FVec Ideal S1536 .f32) (Host.rsqrt (addf (m ((c : Thread nD τ).loc main_arg16) : FVec Ideal S1536 .f32) (broadcastInDim S1536 ![] bcast_S_S1536 (constant (F := Ideal) S_ .f32 0x3727C5AC#32)))))) (subf (m ((c : Thread nD τ).loc main_arg14) : FVec Ideal S1536 .f32) (mulf (m ((c : Thread nD τ).loc main_arg15) : FVec Ideal S1536 .f32) (mulf (m ((c : Thread nD τ).loc main_arg13) : FVec Ideal S1536 .f32) (Host.rsqrt (addf (m ((c : Thread nD τ).loc main_arg16) : FVec Ideal S1536 .f32) (broadcastInDim S1536 ![] bcast_S_S1536 (constant (F := Ideal) S_ .f32 0x3727C5AC#32)))))))) shapeCasts_S1536_S1x1536) := by
  dsimp only [Gen.V, Gen.hostOps0]
  after_results_simp
  first | done | rfl

/-- Window 9's array: the third layer's folded scale as one row. -/
theorem V_v39 (c : Dev nD) : @Eq (FVec Ideal S1x768 .f32) (V m c main_v39)
    (shapeCast S1x768 (mulf (m ((c : Thread nD τ).loc main_arg17) : FVec Ideal S768 .f32) (Host.rsqrt (addf (m ((c : Thread nD τ).loc main_arg20) : FVec Ideal S768 .f32) (broadcastInDim S768 ![] bcast_S_S768 (constant (F := Ideal) S_ .f32 0x3727C5AC#32))))) shapeCasts_S768_S1x768) := by
  dsimp only [Gen.V, Gen.hostOps0]
  after_results_simp
  first | done | rfl

/-- Window 10's array: the third layer's folded shift as one row. -/
theorem V_v40 (c : Dev nD) : @Eq (FVec Ideal S1x768 .f32) (V m c main_v40)
    (shapeCast S1x768 (addf (mulf (m ((c : Thread nD τ).loc main_arg6) : FVec Ideal S768 .f32) (mulf (m ((c : Thread nD τ).loc main_arg17) : FVec Ideal S768 .f32) (Host.rsqrt (addf (m ((c : Thread nD τ).loc main_arg20) : FVec Ideal S768 .f32) (broadcastInDim S768 ![] bcast_S_S768 (constant (F := Ideal) S_ .f32 0x3727C5AC#32)))))) (subf (m ((c : Thread nD τ).loc main_arg18) : FVec Ideal S768 .f32) (mulf (m ((c : Thread nD τ).loc main_arg19) : FVec Ideal S768 .f32) (mulf (m ((c : Thread nD τ).loc main_arg17) : FVec Ideal S768 .f32) (Host.rsqrt (addf (m ((c : Thread nD τ).loc main_arg20) : FVec Ideal S768 .f32) (broadcastInDim S768 ![] bcast_S_S768 (constant (F := Ideal) S_ .f32 0x3727C5AC#32)))))))) shapeCasts_S768_S1x768) := by
  dsimp only [Gen.V, Gen.hostOps0]
  after_results_simp
  first | done | rfl

/-- Window 11's array: the last layer's bias as one row. -/
theorem V_v41 (c : Dev nD) : @Eq (FVec Ideal S1x10 .f32) (V m c main_v41)
    (shapeCast S1x10 (m ((c : Thread nD τ).loc main_arg8) : FVec Ideal S10 .f32) shapeCasts_S10_S1x10) := by
  dsimp only [Gen.V, Gen.hostOps0]
  after_results_simp
  first | done | rfl

/-! ## Those arrays entry by entry, as the network's parameters -/

/-- The network read off core `c`'s twenty parameter arrays. -/
abbrev netAt (c : Dev nD) : Net 784 3072 1536 768 10 :=
  netOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))

/-- Window 1's array at `(k, j)` is the sign of the first layer's weight `w j k`. -/
theorem v2_apply (c : Dev nD) (k : Fin 784) (j : Fin 3072) :
    (V m c main_v2 : FVec Ideal S784x3072 .bf16) (ix2 k j) = Ideal.sign ((netAt m c).l1.w j k) := by
  refine (congrFun (V_v2 m c) (ix2 k j)).trans ?_
  exact transpose_ix2_apply (α := EReal) (a := 3072) (b := 784) (Host.sign (F := Ideal) (s := S3072x784) (φ := .f32) (m ((c : Thread nD τ).loc main_arg1))) transposes_S3072x784_S784x3072_1_0 k j

/-- Window 2's array at `(k, j)` is the sign of the second layer's weight `w j k`. -/
theorem v5_apply (c : Dev nD) (k : Fin 3072) (j : Fin 1536) :
    (V m c main_v5 : FVec Ideal S3072x1536 .bf16) (ix2 k j) = Ideal.sign ((netAt m c).l2.w j k) := by
  refine (congrFun (V_v5 m c) (ix2 k j)).trans ?_
  exact transpose_ix2_apply (α := EReal) (a := 1536) (b := 3072) (Host.sign (F := Ideal) (s := S1536x3072) (φ := .f32) (m ((c : Thread nD τ).loc main_arg3))) transposes_S1536x3072_S3072x1536_1_0 k j

/-- Window 3's array at `(k, j)` is the sign of the third layer's weight `w j k`. -/
theorem v8_apply (c : Dev nD) (k : Fin 1536) (j : Fin 768) :
    (V m c main_v8 : FVec Ideal S1536x768 .bf16) (ix2 k j) = Ideal.sign ((netAt m c).l3.w j k) := by
  refine (congrFun (V_v8 m c) (ix2 k j)).trans ?_
  exact transpose_ix2_apply (α := EReal) (a := 768) (b := 1536) (Host.sign (F := Ideal) (s := S768x1536) (φ := .f32) (m ((c : Thread nD τ).loc main_arg5))) transposes_S768x1536_S1536x768_1_0 k j

/-- Window 4's array at `(k, j)` is the last layer's weight `w j k`. -/
theorem v10_apply (c : Dev nD) (k : Fin 768) (j : Fin 10) :
    (V m c main_v10 : FVec Ideal S768x10 .bf16) (ix2 k j) = (netAt m c).w4 j k := by
  refine (congrFun (V_v10 m c) (ix2 k j)).trans ?_
  exact transpose_ix2_apply (α := EReal) (a := 10) (b := 768) (m ((c : Thread nD τ).loc main_arg7)) transposes_S10x768_S768x10_1_0 k j

/-- Window 5's row at `j` is the first layer's scale. -/
theorem v19_apply (c : Dev nD) (j : Fin 3072) :
    (V m c main_v19 : FVec Ideal S1x3072 .f32) (ix2 (0 : Fin 1) j) = (netAt m c).l1.scale (netAt m c).eps j :=
  (congrFun (V_v19 m c) (ix2 (0 : Fin 1) j)).trans ((shapeCast_a_1a_apply _ _ (0 : Fin 1) j).trans rfl)

/-- Window 6's row at `j` is the first layer's shift. -/
theorem v20_apply (c : Dev nD) (j : Fin 3072) :
    (V m c main_v20 : FVec Ideal S1x3072 .f32) (ix2 (0 : Fin 1) j) = (netAt m c).l1.shift (netAt m c).eps j :=
  (congrFun (V_v20 m c) (ix2 (0 : Fin 1) j)).trans ((shapeCast_a_1a_apply _ _ (0 : Fin 1) j).trans rfl)

/-- Window 7's row at `j` is the second layer's scale. -/
theorem v29_apply (c : Dev nD) (j : Fin 1536) :
    (V m c main_v29 : FVec Ideal S1x1536 .f32) (ix2 (0 : Fin 1) j) = (netAt m c).l2.scale (netAt m c).eps j :=
  (congrFun (V_v29 m c) (ix2 (0 : Fin 1) j)).trans ((shapeCast_a_1a_apply _ _ (0 : Fin 1) j).trans rfl)

/-- Window 8's row at `j` is the second layer's shift. -/
theorem v30_apply (c : Dev nD) (j : Fin 1536) :
    (V m c main_v30 : FVec Ideal S1x1536 .f32) (ix2 (0 : Fin 1) j) = (netAt m c).l2.shift (netAt m c).eps j :=
  (congrFun (V_v30 m c) (ix2 (0 : Fin 1) j)).trans ((shapeCast_a_1a_apply _ _ (0 : Fin 1) j).trans rfl)

/-- Window 9's row at `j` is the third layer's scale. -/
theorem v39_apply (c : Dev nD) (j : Fin 768) :
    (V m c main_v39 : FVec Ideal S1x768 .f32) (ix2 (0 : Fin 1) j) = (netAt m c).l3.scale (netAt m c).eps j :=
  (congrFun (V_v39 m c) (ix2 (0 : Fin 1) j)).trans ((shapeCast_a_1a_apply _ _ (0 : Fin 1) j).trans rfl)

/-- Window 10's row at `j` is the third layer's shift. -/
theorem v40_apply (c : Dev nD) (j : Fin 768) :
    (V m c main_v40 : FVec Ideal S1x768 .f32) (ix2 (0 : Fin 1) j) = (netAt m c).l3.shift (netAt m c).eps j :=
  (congrFun (V_v40 m c) (ix2 (0 : Fin 1) j)).trans ((shapeCast_a_1a_apply _ _ (0 : Fin 1) j).trans rfl)

/-- Window 11's row at `j` is the last layer's bias. -/
theorem v41_apply (c : Dev nD) (j : Fin 10) :
    (V m c main_v41 : FVec Ideal S1x10 .f32) (ix2 (0 : Fin 1) j) = (netAt m c).b4 j :=
  (congrFun (V_v41 m c) (ix2 (0 : Fin 1) j)).trans (shapeCast_a_1a_apply _ _ (0 : Fin 1) j)

/-! ## The windows' blocks read off the arrays -/

/-- Where the windows sit: at grid point `t` the input rows' window and the result's window are at block `(t, 0)`. -/
theorem idx_rows : ∀ t : Fin cfg0.N, win0_0.index t (0 : Fin 2) = t.val ∧ win0_0.index t (1 : Fin 2) = 0
    ∧ win0_12.index t (0 : Fin 2) = t.val ∧ win0_12.index t (1 : Fin 2) = 0 :=
  (by decide +kernel : ∀ t : Fin grid0.N, _)

/-- Parameter window 1 is at block `(0, 0)` at every grid point. -/
theorem idx_w1 : ∀ t : Fin cfg0.N, win0_1.index t (0 : Fin 2) = 0 ∧ win0_1.index t (1 : Fin 2) = 0 :=
  (by decide +kernel : ∀ t : Fin grid0.N, _)

/-- Window 1's block is its whole array at every point. -/
theorem blk1_apply (c : Dev nD) (t : Fin cfg0.N) (k : Fin 784) (j : Fin 3072) :
    (iblk m c 1 t : Vec Ideal S784x3072 .bf16) (ix2 k j) = (V m c main_v2 : FVec Ideal S784x3072 .bf16) (ix2 k j) := by
  obtain ⟨e0, e1⟩ := idx_w1 t
  show (V m c main_v2 : FVec Ideal S784x3072 .bf16) (((cfg0.win 1).blk t).view.emb (ix2 k j)) = _
  refine congrArg _ (funext fun a => Fin.ext ?_)
  match a with
  | ⟨0, _⟩ => show win0_1.index t (0 : Fin 2) * 784 + 1 * k.val = k.val; omega
  | ⟨1, _⟩ => show win0_1.index t (1 : Fin 2) * 3072 + 1 * j.val = j.val; omega

/-- Parameter window 2 is at block `(0, 0)` at every grid point. -/
theorem idx_w2 : ∀ t : Fin cfg0.N, win0_2.index t (0 : Fin 2) = 0 ∧ win0_2.index t (1 : Fin 2) = 0 :=
  (by decide +kernel : ∀ t : Fin grid0.N, _)

/-- Window 2's block is its whole array at every point. -/
theorem blk2_apply (c : Dev nD) (t : Fin cfg0.N) (k : Fin 3072) (j : Fin 1536) :
    (iblk m c 2 t : Vec Ideal S3072x1536 .bf16) (ix2 k j) = (V m c main_v5 : FVec Ideal S3072x1536 .bf16) (ix2 k j) := by
  obtain ⟨e0, e1⟩ := idx_w2 t
  show (V m c main_v5 : FVec Ideal S3072x1536 .bf16) (((cfg0.win 2).blk t).view.emb (ix2 k j)) = _
  refine congrArg _ (funext fun a => Fin.ext ?_)
  match a with
  | ⟨0, _⟩ => show win0_2.index t (0 : Fin 2) * 3072 + 1 * k.val = k.val; omega
  | ⟨1, _⟩ => show win0_2.index t (1 : Fin 2) * 1536 + 1 * j.val = j.val; omega

/-- Parameter window 3 is at block `(0, 0)` at every grid point. -/
theorem idx_w3 : ∀ t : Fin cfg0.N, win0_3.index t (0 : Fin 2) = 0 ∧ win0_3.index t (1 : Fin 2) = 0 :=
  (by decide +kernel : ∀ t : Fin grid0.N, _)

/-- Window 3's block is its whole array at every point. -/
theorem blk3_apply (c : Dev nD) (t : Fin cfg0.N) (k : Fin 1536) (j : Fin 768) :
    (iblk m c 3 t : Vec Ideal S1536x768 .bf16) (ix2 k j) = (V m c main_v8 : FVec Ideal S1536x768 .bf16) (ix2 k j) := by
  obtain ⟨e0, e1⟩ := idx_w3 t
  show (V m c main_v8 : FVec Ideal S1536x768 .bf16) (((cfg0.win 3).blk t).view.emb (ix2 k j)) = _
  refine congrArg _ (funext fun a => Fin.ext ?_)
  match a with
  | ⟨0, _⟩ => show win0_3.index t (0 : Fin 2) * 1536 + 1 * k.val = k.val; omega
  | ⟨1, _⟩ => show win0_3.index t (1 : Fin 2) * 768 + 1 * j.val = j.val; omega

/-- Parameter window 4 is at block `(0, 0)` at every grid point. -/
theorem idx_w4 : ∀ t : Fin cfg0.N, win0_4.index t (0 : Fin 2) = 0 ∧ win0_4.index t (1 : Fin 2) = 0 :=
  (by decide +kernel : ∀ t : Fin grid0.N, _)

/-- Window 4's block is its whole array at every point. -/
theorem blk4_apply (c : Dev nD) (t : Fin cfg0.N) (k : Fin 768) (j : Fin 10) :
    (iblk m c 4 t : Vec Ideal S768x10 .bf16) (ix2 k j) = (V m c main_v10 : FVec Ideal S768x10 .bf16) (ix2 k j) := by
  obtain ⟨e0, e1⟩ := idx_w4 t
  show (V m c main_v10 : FVec Ideal S768x10 .bf16) (((cfg0.win 4).blk t).view.emb (ix2 k j)) = _
  refine congrArg _ (funext fun a => Fin.ext ?_)
  match a with
  | ⟨0, _⟩ => show win0_4.index t (0 : Fin 2) * 768 + 1 * k.val = k.val; omega
  | ⟨1, _⟩ => show win0_4.index t (1 : Fin 2) * 10 + 1 * j.val = j.val; omega

/-- Parameter window 5 is at block `(0, 0)` at every grid point. -/
theorem idx_w5 : ∀ t : Fin cfg0.N, win0_5.index t (0 : Fin 2) = 0 ∧ win0_5.index t (1 : Fin 2) = 0 :=
  (by decide +kernel : ∀ t : Fin grid0.N, _)

/-- Window 5's block is its whole array at every point. -/
theorem blk5_apply (c : Dev nD) (t : Fin cfg0.N) (k : Fin 1) (j : Fin 3072) :
    (iblk m c 5 t : Vec Ideal S1x3072 .f32) (ix2 k j) = (V m c main_v19 : FVec Ideal S1x3072 .f32) (ix2 k j) := by
  obtain ⟨e0, e1⟩ := idx_w5 t
  show (V m c main_v19 : FVec Ideal S1x3072 .f32) (((cfg0.win 5).blk t).view.emb (ix2 k j)) = _
  refine congrArg _ (funext fun a => Fin.ext ?_)
  match a with
  | ⟨0, _⟩ => show win0_5.index t (0 : Fin 2) * 1 + 1 * k.val = k.val; omega
  | ⟨1, _⟩ => show win0_5.index t (1 : Fin 2) * 3072 + 1 * j.val = j.val; omega

/-- Parameter window 6 is at block `(0, 0)` at every grid point. -/
theorem idx_w6 : ∀ t : Fin cfg0.N, win0_6.index t (0 : Fin 2) = 0 ∧ win0_6.index t (1 : Fin 2) = 0 :=
  (by decide +kernel : ∀ t : Fin grid0.N, _)

/-- Window 6's block is its whole array at every point. -/
theorem blk6_apply (c : Dev nD) (t : Fin cfg0.N) (k : Fin 1) (j : Fin 3072) :
    (iblk m c 6 t : Vec Ideal S1x3072 .f32) (ix2 k j) = (V m c main_v20 : FVec Ideal S1x3072 .f32) (ix2 k j) := by
  obtain ⟨e0, e1⟩ := idx_w6 t
  show (V m c main_v20 : FVec Ideal S1x3072 .f32) (((cfg0.win 6).blk t).view.emb (ix2 k j)) = _
  refine congrArg _ (funext fun a => Fin.ext ?_)
  match a with
  | ⟨0, _⟩ => show win0_6.index t (0 : Fin 2) * 1 + 1 * k.val = k.val; omega
  | ⟨1, _⟩ => show win0_6.index t (1 : Fin 2) * 3072 + 1 * j.val = j.val; omega

/-- Parameter window 7 is at block `(0, 0)` at every grid point. -/
theorem idx_w7 : ∀ t : Fin cfg0.N, win0_7.index t (0 : Fin 2) = 0 ∧ win0_7.index t (1 : Fin 2) = 0 :=
  (by decide +kernel : ∀ t : Fin grid0.N, _)

/-- Window 7's block is its whole array at every point. -/
theorem blk7_apply (c : Dev nD) (t : Fin cfg0.N) (k : Fin 1) (j : Fin 1536) :
    (iblk m c 7 t : Vec Ideal S1x1536 .f32) (ix2 k j) = (V m c main_v29 : FVec Ideal S1x1536 .f32) (ix2 k j) := by
  obtain ⟨e0, e1⟩ := idx_w7 t
  show (V m c main_v29 : FVec Ideal S1x1536 .f32) (((cfg0.win 7).blk t).view.emb (ix2 k j)) = _
  refine congrArg _ (funext fun a => Fin.ext ?_)
  match a with
  | ⟨0, _⟩ => show win0_7.index t (0 : Fin 2) * 1 + 1 * k.val = k.val; omega
  | ⟨1, _⟩ => show win0_7.index t (1 : Fin 2) * 1536 + 1 * j.val = j.val; omega

/-- Parameter window 8 is at block `(0, 0)` at every grid point. -/
theorem idx_w8 : ∀ t : Fin cfg0.N, win0_8.index t (0 : Fin 2) = 0 ∧ win0_8.index t (1 : Fin 2) = 0 :=
  (by decide +kernel : ∀ t : Fin grid0.N, _)

/-- Window 8's block is its whole array at every point. -/
theorem blk8_apply (c : Dev nD) (t : Fin cfg0.N) (k : Fin 1) (j : Fin 1536) :
    (iblk m c 8 t : Vec Ideal S1x1536 .f32) (ix2 k j) = (V m c main_v30 : FVec Ideal S1x1536 .f32) (ix2 k j) := by
  obtain ⟨e0, e1⟩ := idx_w8 t
  show (V m c main_v30 : FVec Ideal S1x1536 .f32) (((cfg0.win 8).blk t).view.emb (ix2 k j)) = _
  refine congrArg _ (funext fun a => Fin.ext ?_)
  match a with
  | ⟨0, _⟩ => show win0_8.index t (0 : Fin 2) * 1 + 1 * k.val = k.val; omega
  | ⟨1, _⟩ => show win0_8.index t (1 : Fin 2) * 1536 + 1 * j.val = j.val; omega

/-- Parameter window 9 is at block `(0, 0)` at every grid point. -/
theorem idx_w9 : ∀ t : Fin cfg0.N, win0_9.index t (0 : Fin 2) = 0 ∧ win0_9.index t (1 : Fin 2) = 0 :=
  (by decide +kernel : ∀ t : Fin grid0.N, _)

/-- Window 9's block is its whole array at every point. -/
theorem blk9_apply (c : Dev nD) (t : Fin cfg0.N) (k : Fin 1) (j : Fin 768) :
    (iblk m c 9 t : Vec Ideal S1x768 .f32) (ix2 k j) = (V m c main_v39 : FVec Ideal S1x768 .f32) (ix2 k j) := by
  obtain ⟨e0, e1⟩ := idx_w9 t
  show (V m c main_v39 : FVec Ideal S1x768 .f32) (((cfg0.win 9).blk t).view.emb (ix2 k j)) = _
  refine congrArg _ (funext fun a => Fin.ext ?_)
  match a with
  | ⟨0, _⟩ => show win0_9.index t (0 : Fin 2) * 1 + 1 * k.val = k.val; omega
  | ⟨1, _⟩ => show win0_9.index t (1 : Fin 2) * 768 + 1 * j.val = j.val; omega

/-- Parameter window 10 is at block `(0, 0)` at every grid point. -/
theorem idx_w10 : ∀ t : Fin cfg0.N, win0_10.index t (0 : Fin 2) = 0 ∧ win0_10.index t (1 : Fin 2) = 0 :=
  (by decide +kernel : ∀ t : Fin grid0.N, _)

/-- Window 10's block is its whole array at every point. -/
theorem blk10_apply (c : Dev nD) (t : Fin cfg0.N) (k : Fin 1) (j : Fin 768) :
    (iblk m c 10 t : Vec Ideal S1x768 .f32) (ix2 k j) = (V m c main_v40 : FVec Ideal S1x768 .f32) (ix2 k j) := by
  obtain ⟨e0, e1⟩ := idx_w10 t
  show (V m c main_v40 : FVec Ideal S1x768 .f32) (((cfg0.win 10).blk t).view.emb (ix2 k j)) = _
  refine congrArg _ (funext fun a => Fin.ext ?_)
  match a with
  | ⟨0, _⟩ => show win0_10.index t (0 : Fin 2) * 1 + 1 * k.val = k.val; omega
  | ⟨1, _⟩ => show win0_10.index t (1 : Fin 2) * 768 + 1 * j.val = j.val; omega

/-- Parameter window 11 is at block `(0, 0)` at every grid point. -/
theorem idx_w11 : ∀ t : Fin cfg0.N, win0_11.index t (0 : Fin 2) = 0 ∧ win0_11.index t (1 : Fin 2) = 0 :=
  (by decide +kernel : ∀ t : Fin grid0.N, _)

/-- Window 11's block is its whole array at every point. -/
theorem blk11_apply (c : Dev nD) (t : Fin cfg0.N) (k : Fin 1) (j : Fin 10) :
    (iblk m c 11 t : Vec Ideal S1x10 .f32) (ix2 k j) = (V m c main_v41 : FVec Ideal S1x10 .f32) (ix2 k j) := by
  obtain ⟨e0, e1⟩ := idx_w11 t
  show (V m c main_v41 : FVec Ideal S1x10 .f32) (((cfg0.win 11).blk t).view.emb (ix2 k j)) = _
  refine congrArg _ (funext fun a => Fin.ext ?_)
  match a with
  | ⟨0, _⟩ => show win0_11.index t (0 : Fin 2) * 1 + 1 * k.val = k.val; omega
  | ⟨1, _⟩ => show win0_11.index t (1 : Fin 2) * 10 + 1 * j.val = j.val; omega

/-- The input rows' block at point `t` is rows `512 t … 512 t + 511` of the input array. -/
theorem blk0_apply (c : Dev nD) (t : Fin cfg0.N) (p : Fin 512) (k : Fin 784) (r : Fin 16384) (hr : r.val = t.val * 512 + p.val) :
    (iblk m c 0 t : Vec Ideal S512x784 .f32) (ix2 p k) = (m ((c : Thread nD τ).loc main_arg0) : FVec Ideal S16384x784 .f32) (ix2 r k) := by
  obtain ⟨e0, e1, -, -⟩ := idx_rows t
  rw [← V_main_arg0 m c]
  show (V m c main_arg0 : FVec Ideal S16384x784 .f32) (((cfg0.win 0).blk t).view.emb (ix2 p k)) = _
  refine congrArg _ (funext fun a => Fin.ext ?_)
  match a with
  | ⟨0, _⟩ => show win0_0.index t (0 : Fin 2) * 512 + 1 * p.val = r.val; omega
  | ⟨1, _⟩ => show win0_0.index t (1 : Fin 2) * 784 + 1 * k.val = k.val; omega

/-! ## The result array -/

/-- Entry (r, c) of the result: row r of the input through the folded network. -/
def kerOut (c : Dev nD) : S16384x10.Idx → EReal := fun i =>
  (netOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))).kerRow
    (rowOf (m ((c : Thread nD τ).loc main_arg0)) (i 0)) (i 1)

/-- The result at an entry whose coordinates are `r` and `q`. -/
theorem kerOut_apply (c : Dev nD) (i : S16384x10.Idx) (r : Fin 16384) (q : Fin 10) (hr : (i 0).val = r.val) (hq : (i 1).val = q.val) :
    kerOut m c i = (netAt m c).kerRow (rowOf (m ((c : Thread nD τ).loc main_arg0)) r) q := by
  have hi : i = ix2 r q := by
    funext a
    match a with
    | ⟨0, _⟩ => exact Fin.ext hr
    | ⟨1, _⟩ => exact Fin.ext hq
  subst hi
  rfl

/-! ## One grid point's block -/

/-- The zero offset on two axes. -/
theorem hz : (![0, 0] : Fin 2 → ℕ) = fun _ => 0 := funext fun a => by fin_cases a <;> rfl

/-- The block a point leaves, from its windows' blocks: when the parameter blocks hold the network's parameters, entry
    `(p, q)` is the folded network on row `p` of the input block. -/
theorem out_apply (x0 : Vec Ideal S512x784 .f32) (x1 : Vec Ideal S784x3072 .bf16) (x2 : Vec Ideal S3072x1536 .bf16)
    (x3 : Vec Ideal S1536x768 .bf16) (x4 : Vec Ideal S768x10 .bf16) (x5 x6 : Vec Ideal S1x3072 .f32)
    (x7 x8 : Vec Ideal S1x1536 .f32) (x9 x10 : Vec Ideal S1x768 .f32) (x11 : Vec Ideal S1x10 .f32)
    (N : Net 784 3072 1536 768 10)
    (hw1 : ∀ (k : Fin 784) (j : Fin 3072), x1 (ix2 k j) = Ideal.sign (N.l1.w j k))
    (hs1 : ∀ j : Fin 3072, x5 (ix2 (0 : Fin 1) j) = N.l1.scale N.eps j)
    (hsh1 : ∀ j : Fin 3072, x6 (ix2 (0 : Fin 1) j) = N.l1.shift N.eps j)
    (hw2 : ∀ (k : Fin 3072) (j : Fin 1536), x2 (ix2 k j) = Ideal.sign (N.l2.w j k))
    (hs2 : ∀ j : Fin 1536, x7 (ix2 (0 : Fin 1) j) = N.l2.scale N.eps j)
    (hsh2 : ∀ j : Fin 1536, x8 (ix2 (0 : Fin 1) j) = N.l2.shift N.eps j)
    (hw3 : ∀ (k : Fin 1536) (j : Fin 768), x3 (ix2 k j) = Ideal.sign (N.l3.w j k))
    (hs3 : ∀ j : Fin 768, x9 (ix2 (0 : Fin 1) j) = N.l3.scale N.eps j)
    (hsh3 : ∀ j : Fin 768, x10 (ix2 (0 : Fin 1) j) = N.l3.shift N.eps j)
    (hw4 : ∀ (k : Fin 768) (q : Fin 10), x4 (ix2 k q) = N.w4 q k)
    (hb4 : ∀ q : Fin 10, x11 (ix2 (0 : Fin 1) q) = N.b4 q)
    (p : Fin 512) (q : Fin 10) :
    out0_12 (F := Ideal) x0 x1 x2 x3 x4 x5 x6 x7 x8 x9 x10 x11 (ix2 p q) = N.kerRow (fun k => x0 (ix2 p k)) q := by
  unfold Gen.out0_12
  simp only [View.ld_unit_zero (S := S512x784) hz, View.ld_unit_zero (S := S784x3072) hz, View.ld_unit_zero (S := S1x3072) hz,
    View.ld_unit_zero (S := S3072x1536) hz, View.ld_unit_zero (S := S1x1536) hz, View.ld_unit_zero (S := S1536x768) hz,
    View.ld_unit_zero (S := S1x768) hz, View.ld_unit_zero (S := S768x10) hz, View.ld_unit_zero (S := S1x10) hz]
  refine (Value.canon12_eq (F := Ideal) x0 x1 x5 x6 x2 x7 x8 x3 x9 x10 x4 x11 (ix2 p q)).trans ?_
  exact KerValue.block_apply x0 x1 x5 x6 x2 x7 x8 x3 x9 x10 x4 x11 N hw1 hs1 hsh1 hw2 hs2 hsh2 hw3 hs3 hsh3 hw4 hb4 p q

/-- What point `t` writes back is block `t` of the result array. -/
theorem flushed_eq (c : Dev nD) (t : Fin cfg0.N) :
    (dats m 0 c).flushed 12 t = ((cfg0.win 12).blk t).view.read (Elt Ideal) (kerOut m c) := by
  rw [Value.flushed12]
  obtain ⟨-, -, e0, e1⟩ := idx_rows t
  have ht : t.val < 32 := lt_of_lt_of_eq t.isLt N_0
  show (fun y : S512x10.Idx => out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y)
    = fun y : S512x10.Idx => kerOut m c (((cfg0.win 12).blk t).view.emb y)
  funext y
  obtain ⟨p, q, rfl⟩ : ∃ (p : Fin 512) (q : Fin 10), y = ix2 p q := ⟨y 0, y 1, eq_ix2 y⟩
  refine (out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (netAt m c)
    (fun k j => (blk1_apply m c t k j).trans (v2_apply m c k j))
    (fun j => (blk5_apply m c t 0 j).trans (v19_apply m c j))
    (fun j => (blk6_apply m c t 0 j).trans (v20_apply m c j))
    (fun k j => (blk2_apply m c t k j).trans (v5_apply m c k j))
    (fun j => (blk7_apply m c t 0 j).trans (v29_apply m c j))
    (fun j => (blk8_apply m c t 0 j).trans (v30_apply m c j))
    (fun k j => (blk3_apply m c t k j).trans (v8_apply m c k j))
    (fun j => (blk9_apply m c t 0 j).trans (v39_apply m c j))
    (fun j => (blk10_apply m c t 0 j).trans (v40_apply m c j))
    (fun k j => (blk4_apply m c t k j).trans (v10_apply m c k j))
    (fun j => (blk11_apply m c t 0 j).trans (v41_apply m c j)) p q).trans ?_
  refine Eq.trans ?_ (kerOut_apply m c _ ⟨t.val * 512 + p.val, by omega⟩ q ?_ ?_).symm
  · exact congrArg (fun x => (netAt m c).kerRow x q) (funext fun k => blk0_apply m c t p k _ rfl)
  · show win0_12.index t (0 : Fin 2) * 512 + 1 * p.val = t.val * 512 + p.val; omega
  · show win0_12.index t (1 : Fin 2) * 10 + 1 * q.val = q.val; omega

/-! ## The blocks tile the array -/

/-- An entry is in point `t`'s block iff each coordinate is in the block's range on its axis. -/
theorem mem_blk (t : Fin cfg0.N) (i : S16384x10.Idx) :
    i ∈ ((cfg0.win 12).blk t).view.set ↔ ∀ a : Fin 2, win0_12.index t a * S512x10.size a ≤ (i a).val ∧ (i a).val < win0_12.index t a * S512x10.size a + S512x10.size a := by
  show i ∈ ((View.whole main_v42).slice (win0_12.rect t)).set ↔ _
  rw [View.set_slice_whole, Rect.mem_set_unit]
  exact Iff.rfl

/-- Row `r` is in the block of point `r / 512`. -/
theorem cover (i : S16384x10.Idx) : ∃ t : Fin cfg0.N, (cfg0.win 12).flush t = true ∧ i ∈ ((cfg0.win 12).blk t).view.set := by
  have hi0 : (i 0).val < 16384 := (i 0).isLt
  have hi1 : (i 1).val < 10 := (i 1).isLt
  have hN : cfg0.N = 32 := N_0
  let t : Fin cfg0.N := ⟨(i 0).val / 512, by rw [hN]; omega⟩
  obtain ⟨-, -, e0, e1⟩ := idx_rows t
  have e0' : win0_12.index t (0 : Fin 2) = (i 0).val / 512 := e0
  refine ⟨t, flush0_12 t, ?_⟩
  rw [mem_blk]
  intro a
  match a with
  | ⟨0, _⟩ => show win0_12.index t (0 : Fin 2) * 512 ≤ (i 0).val ∧ (i 0).val < win0_12.index t (0 : Fin 2) * 512 + 512; omega
  | ⟨1, _⟩ => show win0_12.index t (1 : Fin 2) * 10 ≤ (i 1).val ∧ (i 1).val < win0_12.index t (1 : Fin 2) * 10 + 10; omega

/-- The result array after the grid has run. -/
theorem final (c : Dev nD) : (dats m 0 c).arrAt 12 cfg0.N = kerOut m c :=
  (dats m 0 c).arrAt_eq_of_cover 12 (kerOut m c) (fun t _ => flushed_eq m c t) cover

/-! ## The run -/

/-- The kernel's run: the result array holds the folded network on every input row, the arguments are unchanged. -/
theorem run : θ_run defs (onTc (τ := τ) (main (F := Ideal))) ⟨m, fun _ => 0, ρ⟩ fun r => ∀ c : Dev nD,
      r.2.mem ((c : Thread nD τ).loc main_v42) = kerOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun r h c => ⟨(h c).1.trans (final m c), (h c).2⟩) (Cert.KernelIdeal.Value.run_blocks m ρ)

end Cert.Mlp.KerArray

end
-- ==== Proof.lean ====
/-
  The certificate: the kernel's three-layer binarized perceptron with a log-softmax head against its reference.

  Frames: both kernel programs' frames are the generated ones; the reference's frame is its run with the result dropped.
  The idealization's three rewrites are each their rule's statement.  The algebraic claim: the idealized kernel's result
  array is, entry `(r, c)`, row `r` of the input put through the network with each batch normalisation folded into one
  scale and one shift (KerArray); the reference's result is the same row through the network as written (RefValue); and
  the two networks agree wherever all inputs are real numbers and the stored variances are nonnegative (Algebra), which
  is what the precondition says (Pre).
-/
import proofs.«105552_j3582002725506_2_alg».proof.Defs
import proofs.«105552_j3582002725506_2_alg».proof.Proof.Gen.Kernel
import proofs.«105552_j3582002725506_2_alg».proof.Proof.Gen.Kernel.Skeleton
import proofs.«105552_j3582002725506_2_alg».proof.Proof.Gen.Kernel.Launch
import proofs.«105552_j3582002725506_2_alg».proof.Proof.Gen.Kernel.Points
import proofs.«105552_j3582002725506_2_alg».proof.Proof.Gen.Kernel.Frame
import proofs.«105552_j3582002725506_2_alg».proof.Proof.Gen.KernelIdeal
import proofs.«105552_j3582002725506_2_alg».proof.Proof.Gen.KernelIdeal.Skeleton
import proofs.«105552_j3582002725506_2_alg».proof.Proof.Gen.KernelIdeal.Launch
import proofs.«105552_j3582002725506_2_alg».proof.Proof.Gen.KernelIdeal.Points
import proofs.«105552_j3582002725506_2_alg».proof.Proof.Gen.KernelIdeal.Frame
import proofs.«105552_j3582002725506_2_alg».proof.Proof.Gen.KernelIdeal.Value
import proofs.«105552_j3582002725506_2_alg».proof.Proof.Gen.ReferenceIdeal
import proofs.«105552_j3582002725506_2_alg».proof.Proof.Gen.Pre_finite_inputs
import proofs.«105552_j3582002725506_2_alg».proof.Proof.RefRun
import proofs.«105552_j3582002725506_2_alg».proof.Proof.RefRead
import proofs.«105552_j3582002725506_2_alg».proof.Proof.NetOf
import proofs.«105552_j3582002725506_2_alg».proof.Proof.Algebra
import proofs.«105552_j3582002725506_2_alg».proof.Proof.Pre
import proofs.«105552_j3582002725506_2_alg».proof.Proof.RefValue
import proofs.«105552_j3582002725506_2_alg».proof.Proof.KerArray
import Idealize.ShloMosaic.Adequacy
import Idealize.ShloMosaic.Init

noncomputable section

namespace Cert.Proof

open Idealize.ShloMosaic Idealize.ShloMosaic.TcCoe Idealize.SL.Sem Idealize.ShloMosaic.ValueIdx Cert.Mlp

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The three rewrites of the idealization: the removed round trip through the narrower format, and the two sign-bit
    reads printed as comparisons with zero. -/
theorem preserves : Cert.preserves_Kernel_KernelIdeal :=
  ⟨IdealRules.truncf_extf.statement _ .f32 .bf16, IdealRules.sign_bit.statement _ .f32, IdealRules.sign_bit.statement _ .f32⟩

/-- Where the precondition holds the network read off the arguments has real parameters, nonnegative stored variances
    and a positive real `ε`, and every input row is real. -/
theorem net_real (m : (ℓ : Loc Cert.KernelIdeal.nD Cert.KernelIdeal.τ Cert.KernelIdeal.sig) → Buf (Elt Ideal) ℓ)
    (hpre : Cert.Pre_KernelIdeal m) (c : Dev Cert.KernelIdeal.nD) :
    (netOf (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))).IsRealParams
      ∧ ∀ i, Cert.LibReal.IsReal (m ((c.tc : Thread Cert.KernelIdeal.nD Cert.KernelIdeal.τ).loc Cert.KernelIdeal.main_arg0) i) := by
  obtain ⟨r0, r1, r2, r3, r4, r5, r6, r7, r8, r9, r10, r11, r12, r13, r14, r15, r16, r17, r18, r19, r20, n12, n16, n20⟩ :=
    Cert.Mlp.Pre.decode _ _ _ _ _ _ _ _ _ _ _ _ _ _ _ _ _ _ _ _ _ (hpre c)
  refine ⟨⟨⟨fun j => r2 _, fun j => r9 _, fun j => r10 _, fun j => r11 _, fun j => r12 _, fun j => n12 _⟩,
    ⟨fun j => r4 _, fun j => r13 _, fun j => r14 _, fun j => r15 _, fun j => r16 _, fun j => n16 _⟩,
    ⟨fun j => r6 _, fun j => r17 _, fun j => r18 _, fun j => r19 _, fun j => r20 _, fun j => n20 _⟩,
    fun c' k => r7 _, fun c' => r8 _, ?_⟩, r0⟩
  obtain ⟨e, he, hw⟩ := Cert.Net.ofBits_eps
  exact ⟨e, he, hw⟩

theorem algebraic : Cert.algebraic_KernelIdeal_ReferenceIdeal := by
  intro m ρ m' ρ' hpre hagree
  refine ⟨Cert.Mlp.KerArray.kerOut m, Cert.Mlp.KerArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v73_eq]
  obtain ⟨h0, h1, h2, h3, h4, h5, h6, h7, h8, h9, h10, h11, h12, h13, h14, h15, h16, h17, h18, h19, h20⟩ := hagree c
  rw [h0, h1, h2, h3, h4, h5, h6, h7, h8, h9, h10, h11, h12, h13, h14, h15, h16, h17, h18, h19, h20]
  obtain ⟨hN, hx⟩ := net_real m hpre c
  funext i
  obtain ⟨r, cc, rfl⟩ : ∃ (r : Fin 16384) (cc : Fin 10), i = ix2 r cc := ⟨i 0, i 1, eq_ix2 i⟩
  show _ = Cert.Mlp.KerArray.kerOut m c (ix2 r cc)
  rw [Cert.Mlp.RefValue.ref_apply, Cert.Mlp.KerArray.kerOut_apply m c (ix2 r cc) r cc rfl rfl]
  exact (congrFun (Net.kerRow_eq_refRow (by norm_num) hN (fun k => hx (ix2 r k))) cc).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
